-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S20000x128 : Shape := ⟨2, ![20000, 128]⟩
abbrev S2x320000 : Shape := ⟨2, ![2, 320000]⟩
abbrev S256x256 : Shape := ⟨2, ![256, 256]⟩
abbrev S256 : Shape := ⟨1, ![256]⟩
abbrev S128x256 : Shape := ⟨2, ![128, 256]⟩
abbrev S512x256 : Shape := ⟨2, ![512, 256]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S512x256 : S_.BroadcastsInDim S512x256 (![] : Fin 0 → Fin S512x256.rank)
  reducesTo_S512x256_S_d0_1 : S512x256.ReducesTo [0, 1] S_

variable [Facts]

def fn_part2 {F : FTy → Type} [FloatOps F] (main_arg8 : FVec F S256 .f32) (main_arg9 : FVec F S256x256 .f32) (main_arg10 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg5 : FVec F S128x256 .f32) (main_arg6 : FVec F S256 .f32) (main_arg7 : FVec F S512x256 .f32) (main_arg8 : FVec F S256 .f32) (main_arg9 : FVec F S256x256 .f32) (main_arg10 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x256 .f32 := Host.absf main_arg7
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg8 main_arg9 main_arg10 main_v33

def fn {F : FTy → Type} [FloatOps F] (main_arg0 : FVec F S20000x256 .f32) (main_arg1 : FVec F S20000x128 .f32) (main_arg2 : IVec S2x320000 32) (main_arg3 : FVec F S256x256 .f32) (main_arg4 : FVec F S256 .f32) (main_arg5 : FVec F S128x256 .f32) (main_arg6 : FVec F S256 .f32) (main_arg7 : FVec F S512x256 .f32) (main_arg8 : FVec F S256 .f32) (main_arg9 : FVec F S256x256 .f32) (main_arg10 : FVec F S256 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_v13 main_v16
-- ==== Kernel.lean ====
abbrev S20000x256 : Shape := ⟨2, ![20000, 256]⟩
abbrev S20000x128 : Shape := ⟨2, ![20000, 128]⟩
abbrev S2x320000 : Shape := ⟨2, ![2, 320000]⟩
abbrev S256x256 : Shape := ⟨2, ![256, 256]⟩
abbrev S256 : Shape := ⟨1, ![256]⟩
abbrev S128x256 : Shape := ⟨2, ![128, 256]⟩
abbrev S512x256 : Shape := ⟨2, ![512, 256]⟩
abbrev S20000 : Shape := ⟨1, ![20000]⟩
abbrev S1x320000 : Shape := ⟨2, ![1, 320000]⟩
abbrev S320000 : Shape := ⟨1, ![320000]⟩
abbrev S340000 : Shape := ⟨1, ![340000]⟩
abbrev S_ : Shape := ⟨0, ![]⟩
abbrev S340000x1 : Shape := ⟨2, ![340000, 1]⟩
abbrev S2000x256 : Shape := ⟨2, ![2000, 256]⟩
abbrev S340000x256 : Shape := ⟨2, ![340000, 256]⟩
abbrev S1x256 : Shape := ⟨2, ![1, 256]⟩
abbrev S2000x128 : Shape := ⟨2, ![2000, 128]⟩
abbrev S20000x512 : Shape := ⟨2, ![20000, 512]⟩
abbrev S2000x512 : Shape := ⟨2, ![2000, 512]⟩

abbrev nBuf : Space → Nat
  | .hbm => 128
  | .vmem => 40
  | .smem => 0
  | _ => 0

abbrev bufTy : (tb : Table) → Fin (tcTables nBuf tb) → BufTy
  | .hbm, ⟨0, _⟩ => ⟨S20000x256, .f32⟩
  | .hbm, ⟨1, _⟩ => ⟨S20000x128, .f32⟩
  | .hbm, ⟨2, _⟩ => ⟨S2x320000, .i32⟩
  | .hbm, ⟨3, _⟩ => ⟨S256x256, .f32⟩
  | .hbm, ⟨4, _⟩ => ⟨S256, .f32⟩
  | .hbm, ⟨5, _⟩ => ⟨S128x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S20000, .i32⟩
  | .hbm, ⟨12, _⟩ => ⟨S1x320000, .i32⟩
  | .hbm, ⟨13, _⟩ => ⟨S320000, .i32⟩
  | .hbm, ⟨14, _⟩ => ⟨S340000, .i32⟩
  | .hbm, ⟨15, _⟩ => ⟨S1x320000, .i32⟩
  | .hbm, ⟨16, _⟩ => ⟨S320000, .i32⟩
  | .hbm, ⟨17, _⟩ => ⟨S340000, .i32⟩
  | .hbm, ⟨18, _⟩ => ⟨S_, .f32⟩
  | .hbm, ⟨19, _⟩ => ⟨S340000, .f32⟩
  | .hbm, ⟨20, _⟩ => ⟨S_, .f32⟩
  | .hbm, ⟨21, _⟩ => ⟨S20000, .f32⟩
  | .hbm, ⟨22, _⟩ => ⟨S340000x1, .i32⟩
  | .hbm, ⟨23, _⟩ => ⟨S20000, .f32⟩
  | .hbm, ⟨24, _⟩ => ⟨S_, .f32⟩
  | .hbm, ⟨25, _⟩ => ⟨S20000, .f32⟩
  | .hbm, ⟨26, _⟩ => ⟨S20000, .i1⟩
  | .hbm, ⟨27, _⟩ => ⟨S20000, .f32⟩
  | .hbm, ⟨28, _⟩ => ⟨S_, .f32⟩
  | .hbm, ⟨29, _⟩ => ⟨S_, .f32⟩
  | .hbm, ⟨30, _⟩ => ⟨S20000, .f32⟩
  | .hbm, ⟨31, _⟩ => ⟨S20000, .f32⟩
  | .hbm, ⟨32, _⟩ => ⟨S_, .i32⟩
  | .hbm, ⟨33, _⟩ => ⟨S340000, .i32⟩
  | .hbm, ⟨34, _⟩ => ⟨S340000, .i1⟩
  | .hbm, ⟨35, _⟩ => ⟨S_, .i32⟩
  | .hbm, ⟨36, _⟩ => ⟨S340000, .i32⟩
  | .hbm, ⟨37, _⟩ => ⟨S340000, .i32⟩
  | .hbm, ⟨38, _⟩ => ⟨S340000, .i32⟩
  | .hbm, ⟨39, _⟩ => ⟨S340000x1, .i32⟩
  | .hbm, ⟨40, _⟩ => ⟨S340000, .f32⟩
  | .hbm, ⟨41, _⟩ => ⟨S_, .i32⟩
  | .hbm, ⟨42, _⟩ => ⟨S340000, .i32⟩
  | .hbm, ⟨43, _⟩ => ⟨S340000, .i1⟩
  | .hbm, ⟨44, _⟩ => ⟨S_, .i32⟩
  | .hbm, ⟨45, _⟩ => ⟨S340000, .i32⟩
  | .hbm, ⟨46, _⟩ => ⟨S340000, .i32⟩
  | .hbm, ⟨47, _⟩ => ⟨S340000, .i32⟩
  | .hbm, ⟨48, _⟩ => ⟨S340000x1, .i32⟩
  | .hbm, ⟨49, _⟩ => ⟨S340000, .f32⟩
  | .hbm, ⟨50, _⟩ => ⟨S340000, .f32⟩
  | .hbm, ⟨51, _⟩ => ⟨S20000x256, .f32⟩
  | .hbm, ⟨52, _⟩ => ⟨S_, .i32⟩
  | .hbm, ⟨53, _⟩ => ⟨S340000, .i32⟩
  | .hbm, ⟨54, _⟩ => ⟨S340000, .i1⟩
  | .hbm, ⟨55, _⟩ => ⟨S_, .i32⟩
  | .hbm, ⟨56, _⟩ => ⟨S340000, .i32⟩
  | .hbm, ⟨57, _⟩ => ⟨S340000, .i32⟩
  | .hbm, ⟨58, _⟩ => ⟨S340000, .i32⟩
  | .hbm, ⟨59, _⟩ => ⟨S340000x1, .i32⟩
  | .hbm, ⟨60, _⟩ => ⟨S340000x256, .f32⟩
  | .hbm, ⟨61, _⟩ => ⟨S340000x1, .f32⟩
  | .hbm, ⟨62, _⟩ => ⟨S340000x256, .f32⟩
  | .hbm, ⟨63, _⟩ => ⟨S340000x256, .f32⟩
  | .hbm, ⟨64, _⟩ => ⟨S_, .f32⟩
  | .hbm, ⟨65, _⟩ => ⟨S20000x256, .f32⟩
  | .hbm, ⟨66, _⟩ => ⟨S340000x1, .i32⟩
  | .hbm, ⟨67, _⟩ => ⟨S20000x256, .f32⟩
  | .hbm, ⟨68, _⟩ => ⟨S1x256, .f32⟩
  | .hbm, ⟨69, _⟩ => ⟨S20000x256, .f32⟩
  | .hbm, ⟨70, _⟩ => ⟨S20000x256, .f32⟩
  | .hbm, ⟨71, _⟩ => ⟨S_, .i32⟩
  | .hbm, ⟨72, _⟩ => ⟨S340000, .i32⟩
  | .hbm, ⟨73, _⟩ => ⟨S340000, .i1⟩
  | .hbm, ⟨74, _⟩ => ⟨S_, .i32⟩
  | .hbm, ⟨75, _⟩ => ⟨S340000, .i32⟩
  | .hbm, ⟨76, _⟩ => ⟨S340000, .i32⟩
  | .hbm, ⟨77, _⟩ => ⟨S340000, .i32⟩
  | .hbm, ⟨78, _⟩ => ⟨S340000x1, .i32⟩
  | .hbm, ⟨79, _⟩ => ⟨S340000x256, .f32⟩
  | .hbm, ⟨80, _⟩ => ⟨S340000x1, .f32⟩
  | .hbm, ⟨81, _⟩ => ⟨S340000x256, .f32⟩
  | .hbm, ⟨82, _⟩ => ⟨S340000x256, .f32⟩
  | .hbm, ⟨83, _⟩ => ⟨S_, .f32⟩
  | .hbm, ⟨84, _⟩ => ⟨S20000x256, .f32⟩
  | .hbm, ⟨85, _⟩ => ⟨S340000x1, .i32⟩
  | .hbm, ⟨86, _⟩ => ⟨S20000x256, .f32⟩
  | .hbm, ⟨87, _⟩ => ⟨S1x256, .f32⟩
  | .hbm, ⟨88, _⟩ => ⟨S20000x256, .f32⟩
  | .hbm, ⟨89, _⟩ => ⟨S20000x512, .f32⟩
  | .hbm, ⟨90, _⟩ => ⟨S20000x256, .f32⟩
  | .hbm, ⟨91, _⟩ => ⟨S_, .i32⟩
  | .hbm, ⟨92, _⟩ => ⟨S340000, .i32⟩
  | .hbm, ⟨93, _⟩ => ⟨S340000, .i1⟩
  | .hbm, ⟨94, _⟩ => ⟨S_, .i32⟩
  | .hbm, ⟨95, _⟩ => ⟨S340000, .i32⟩
  | .hbm, ⟨96, _⟩ => ⟨S340000, .i32⟩
  | .hbm, ⟨97, _⟩ => ⟨S340000, .i32⟩
  | .hbm, ⟨98, _⟩ => ⟨S340000x1, .i32⟩
  | .hbm, ⟨99, _⟩ => ⟨S340000x256, .f32⟩
  | .hbm, ⟨100, _⟩ => ⟨S340000x1, .f32⟩
  | .hbm, ⟨101, _⟩ => ⟨S340000x256, .f32⟩
  | .hbm, ⟨102, _⟩ => ⟨S340000x256, .f32⟩
  | .hbm, ⟨103, _⟩ => ⟨S_, .f32⟩
  | .hbm, ⟨104, _⟩ => ⟨S20000x256, .f32⟩
  | .hbm, ⟨105, _⟩ => ⟨S340000x1, .i32⟩
  | .hbm, ⟨106, _⟩ => ⟨S20000x256, .f32⟩
  | .hbm, ⟨107, _⟩ => ⟨S1x256, .f32⟩
  | .hbm, ⟨108, _⟩ => ⟨S20000x256, .f32⟩
  | .hbm, ⟨109, _⟩ => ⟨S20000x256, .f32⟩
  | .hbm, ⟨110, _⟩ => ⟨S_, .i32⟩
  | .hbm, ⟨111, _⟩ => ⟨S340000, .i32⟩
  | .hbm, ⟨112, _⟩ => ⟨S340000, .i1⟩
  | .hbm, ⟨113, _⟩ => ⟨S_, .i32⟩
  | .hbm, ⟨114, _⟩ => ⟨S340000, .i32⟩
  | .hbm, ⟨115, _⟩ => ⟨S340000, .i32⟩
  | .hbm, ⟨116, _⟩ => ⟨S340000, .i32⟩
  | .hbm, ⟨117, _⟩ => ⟨S340000x1, .i32⟩
  | .hbm, ⟨118, _⟩ => ⟨S340000x256, .f32⟩
  | .hbm, ⟨119, _⟩ => ⟨S340000x1, .f32⟩
  | .hbm, ⟨120, _⟩ => ⟨S340000x256, .f32⟩
  | .hbm, ⟨121, _⟩ => ⟨S340000x256, .f32⟩
  | .hbm, ⟨122, _⟩ => ⟨S_, .f32⟩
  | .hbm, ⟨123, _⟩ => ⟨S20000x256, .f32⟩
  | .hbm, ⟨124, _⟩ => ⟨S340000x1, .i32⟩
  | .hbm, ⟨125, _⟩ => ⟨S20000x256, .f32⟩
  | .hbm, ⟨126, _⟩ => ⟨S1x256, .f32⟩
  | .hbm, ⟨127, _⟩ => ⟨S20000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x128, .f32⟩
  | .local _ .vmem, ⟨11, _⟩ => ⟨S2000x128, .f32⟩
  | .local _ .vmem, ⟨12, _⟩ => ⟨S128x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | .local _ .vmem, ⟨20, _⟩ => ⟨S2000x512, .f32⟩
  | .local _ .vmem, ⟨21, _⟩ => ⟨S2000x512, .f32⟩
  | .local _ .vmem, ⟨22, _⟩ => ⟨S512x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S1x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S256x256, .f32⟩
  | .local _ .vmem, ⟨33, _⟩ => ⟨S2000x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S1x256, .f32⟩
  | .local _ .vmem, ⟨38, _⟩ => ⟨S2000x256, .f32⟩
  | .local _ .vmem, ⟨39, _⟩ => ⟨S2000x256, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_c_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_12 : Ref sig .tc := ⟨.hbm, 91, rfl⟩
abbrev main_v64 : Ref sig .tc := ⟨.hbm, 92, rfl⟩
abbrev main_v65 : Ref sig .tc := ⟨.hbm, 93, rfl⟩
abbrev main_c_13 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_14 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_c_15 : Ref sig .tc := ⟨.hbm, 110, rfl⟩
abbrev main_v80 : Ref sig .tc := ⟨.hbm, 111, rfl⟩
abbrev main_v81 : Ref sig .tc := ⟨.hbm, 112, rfl⟩
abbrev main_c_16 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_17 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2000x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x320000_S1x320000_0_0 : S2x320000.Slices ![0, 0] S1x320000
  shapeCasts_S1x320000_S320000 : S1x320000.ShapeCasts S320000
  concatenates_S320000_S20000_S340000_d0 : Shape.Concatenates [S320000, S20000] S340000 0
  slices_S2x320000_S1x320000_1_0 : S2x320000.Slices ![1, 0] S1x320000
  bcast_S_S340000 : S_.BroadcastsInDim S340000 (![] : Fin 0 → Fin S340000.rank)
  bcast_S_S20000 : S_.BroadcastsInDim S20000 (![] : Fin 0 → Fin S20000.rank)
  bcast_S340000_S340000x1_0 : S340000.BroadcastsInDim S340000x1 (![0] : Fin 1 → Fin S340000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S340000x1_S340000x256_0_1 : S340000x1.BroadcastsInDim S340000x256 (![0, 1] : Fin 2 → Fin S340000x256.rank)
  bcast_S_S20000x256 : S_.BroadcastsInDim S20000x256 (![] : Fin 0 → Fin S20000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x128_S2000x128_0_0 : ∀ a, (![0, 0] : Fin 2 → Nat) a + S2000x128.size a ≤ S2000x128.size a
  h_S2000x128 : 0 < S2000x128.numel
  inb_S128x256_S128x256_0_0 : ∀ a, (![0, 0] : Fin 2 → Nat) a + S128x256.size a ≤ S128x256.size a
  h_S128x256 : 0 < S128x256.numel
  concatenates_S20000x256_S20000x256_S20000x512_d1 : Shape.Concatenates [S20000x256, S20000x256] S20000x512 1
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x256_S512x256_0_0 : ∀ a, (![0, 0] : Fin 2 → Nat) a + S512x256.size a ≤ S512x256.size a
  h_S512x256 : 0 < S512x256.numel
  scatter_S20000_S340000x1_S340000_n_0_0_1_wf : ScatterDims.WF S20000 S340000x1 S340000 [] [0] [0] 1
  gather_S20000_S340000x1_S340000_n_0_n_n_0_1_1_wf : GatherDims.WF S20000 S340000x1 S340000 [] [0] [] [0] [] 1 ![1]
  dot_S2000x256_S256x256_S2000x256_1_0_0_1_n_n_wf : DotDims.WF S2000x256 S256x256 S2000x256 [1] [0] [0] [1] [] []
  gather_S20000x256_S340000x1_S340000x256_1_0_n_n_0_1_1256_wf : GatherDims.WF S20000x256 S340000x1 S340000x256 [1] [0] [] [0] [] 1 ![1, 256]
  scatter_S20000x256_S340000x1_S340000x256_1_0_0_1_wf : ScatterDims.WF S20000x256 S340000x1 S340000x256 [1] [0] [0] 1
  dot_S2000x128_S128x256_S2000x256_1_0_0_1_n_n_wf : DotDims.WF S2000x128 S128x256 S2000x256 [1] [0] [0] [1] [] []
  dot_S2000x512_S512x256_S2000x256_1_0_0_1_n_n_wf : DotDims.WF S2000x512 S512x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S20000x256.size a
  hwx0_0 : ∀ i : grid0.Coords, EltTy.bits .f32 = 32 ∨ (Rect.block (s := S20000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S20000x256.size a
  hwx0_2 : ∀ i : grid0.Coords, EltTy.bits .f32 = 32 ∨ (Rect.block (s := S20000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S20000x256.size a
  hwx1_2 : ∀ i : grid1.Coords, EltTy.bits .f32 = 32 ∨ (Rect.block (s := S20000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S20000x128.size a
  hwx2_0 : ∀ i : grid2.Coords, EltTy.bits .f32 = 32 ∨ (Rect.block (s := S20000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S20000x256.size a
  hwx2_2 : ∀ i : grid2.Coords, EltTy.bits .f32 = 32 ∨ (Rect.block (s := S20000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S20000x256.size a
  hwx3_0 : ∀ i : grid3.Coords, EltTy.bits .f32 = 32 ∨ (Rect.block (s := S20000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S20000x256.size a
  hwx3_2 : ∀ i : grid3.Coords, EltTy.bits .f32 = 32 ∨ (Rect.block (s := S20000x256) S2000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x512.size a ≤ S20000x512.size a
  hwx4_0 : ∀ i : grid4.Coords, EltTy.bits .f32 = 32 ∨ (Rect.block (s := S20000x512) S2000x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x256.size a ≤ S512x256.size a
  hwx4_1 : ∀ i : grid4.Coords, EltTy.bits .f32 = 32 ∨ (Rect.block (s := S512x256) S512x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S20000x256.size a
  hwx4_2 : ∀ i : grid4.Coords, EltTy.bits .f32 = 32 ∨ (Rect.block (s := S20000x256) S2000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S20000x256.size a
  hwx5_0 : ∀ i : grid5.Coords, EltTy.bits .f32 = 32 ∨ (Rect.block (s := S20000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x256.size a ≤ S20000x256.size a
  hwx5_2 : ∀ i : grid5.Coords, EltTy.bits .f32 = 32 ∨ (Rect.block (s := S20000x256) S2000x256.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S20000x256.size a
  hwx6_0 : ∀ i : grid6.Coords, EltTy.bits .f32 = 32 ∨ (Rect.block (s := S20000x256) S2000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x256.size a ≤ S256x256.size a
  hwx6_1 : ∀ i : grid6.Coords, EltTy.bits .f32 = 32 ∨ (Rect.block (s := S256x256) S256x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x256.size a ≤ S20000x256.size a
  hwx6_2 : ∀ i : grid6.Coords, EltTy.bits .f32 = 32 ∨ (Rect.block (s := S20000x256) S2000x256.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S20000x256.size a
  hwx7_0 : ∀ i : grid7.Coords, EltTy.bits .f32 = 32 ∨ (Rect.block (s := S20000x256) S2000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x256.size a ≤ S1x256.size a
  hwx7_1 : ∀ i : grid7.Coords, EltTy.bits .f32 = 32 ∨ (Rect.block (s := S1x256) S1x256.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x256.size a ≤ S20000x256.size a
  hwx7_2 : ∀ i : grid7.Coords, EltTy.bits .f32 = 32 ∨ (Rect.block (s := S20000x256) S2000x256.size (cc7_transform_2 i) (hinb7_2 i)).WholeWords (EltTy.packing .f32)

variable [Facts₀]

def scatter_S20000_S340000x1_S340000_n_0_0_1 : ScatterDims S20000 S340000x1 S340000 where
  updateWindowDims := []
  insertedWindowDims := [0]
  scatterDimsToOperandDims := [0]
  indexVectorDim := 1
  wf := scatter_S20000_S340000x1_S340000_n_0_0_1_wf
def gather_S20000_S340000x1_S340000_n_0_n_n_0_1_1 : GatherDims S20000 S340000x1 S340000 where
  offsetDims := []
  collapsedSliceDims := [0]
  operandBatchingDims := []
  startIndicesBatchingDims := []
  startIndexMap := [0]
  indexVectorDim := 1
  sliceSizes := ![1]
  wf := gather_S20000_S340000x1_S340000_n_0_n_n_0_1_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S20000x256_S340000x1_S340000x256_1_0_n_n_0_1_1256 : GatherDims S20000x256 S340000x1 S340000x256 where
  offsetDims := [1]
  collapsedSliceDims := [0]
  operandBatchingDims := []
  startIndicesBatchingDims := []
  startIndexMap := [0]
  indexVectorDim := 1
  sliceSizes := ![1, 256]
  wf := gather_S20000x256_S340000x1_S340000x256_1_0_n_n_0_1_1256_wf
def scatter_S20000x256_S340000x1_S340000x256_1_0_0_1 : ScatterDims S20000x256 S340000x1 S340000x256 where
  updateWindowDims := [1]
  insertedWindowDims := [0]
  scatterDimsToOperandDims := [0]
  indexVectorDim := 1
  wf := scatter_S20000x256_S340000x1_S340000x256_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg1) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v62) S2000x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S512x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S2000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v76) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v77) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v78) S2000x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v78) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S256x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v79) S2000x256.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v92) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v93) S1x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v94) S2000x256.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S20000x256 : Shape := ⟨2, ![20000, 256]⟩
abbrev S20000x128 : Shape := ⟨2, ![20000, 128]⟩
abbrev S2x320000 : Shape := ⟨2, ![2, 320000]⟩
abbrev S256x256 : Shape := ⟨2, ![256, 256]⟩
abbrev S256 : Shape := ⟨1, ![256]⟩
abbrev S128x256 : Shape := ⟨2, ![128, 256]⟩
abbrev S512x256 : Shape := ⟨2, ![512, 256]⟩
abbrev S20000 : Shape := ⟨1, ![20000]⟩
abbrev S1x320000 : Shape := ⟨2, ![1, 320000]⟩
abbrev S320000 : Shape := ⟨1, ![320000]⟩
abbrev S340000 : Shape := ⟨1, ![340000]⟩
abbrev S_ : Shape := ⟨0, ![]⟩
abbrev S340000x1 : Shape := ⟨2, ![340000, 1]⟩
abbrev S340000x256 : Shape := ⟨2, ![340000, 256]⟩
abbrev S1x256 : Shape := ⟨2, ![1, 256]⟩
abbrev S20000x512 : Shape := ⟨2, ![20000, 512]⟩

abbrev nBuf : Space → Nat
  | .hbm => 234
  | .vmem => 0
  | .smem => 0
  | _ => 0

abbrev hbmTy0_0 (i : Nat) : BufTy := match i % 128 with
  | 0 => ⟨S20000x256, .f32⟩
  | 1 => ⟨S20000x128, .f32⟩
  | 2 => ⟨S2x320000, .i32⟩
  | 3 => ⟨S256x256, .f32⟩
  | 4 => ⟨S256, .f32⟩
  | 5 => ⟨S128x256, .f32⟩
  | 6 => ⟨S256, .f32⟩
  | 7 => ⟨S512x256, .f32⟩
  | 8 => ⟨S256, .f32⟩
  | 9 => ⟨S256x256, .f32⟩
  | 10 => ⟨S256, .f32⟩
  | 11 => ⟨S20000, .i32⟩
  | 12 => ⟨S1x320000, .i32⟩
  | 13 => ⟨S320000, .i32⟩
  | 14 => ⟨S340000, .i32⟩
  | 15 => ⟨S1x320000, .i32⟩
  | 16 => ⟨S320000, .i32⟩
  | 17 => ⟨S340000, .i32⟩
  | 18 => ⟨S20000x256, .f32⟩
  | 19 => ⟨S_, .f32⟩
  | 20 => ⟨S340000, .f32⟩
  | 21 => ⟨S_, .f32⟩
  | 22 => ⟨S20000, .f32⟩
  | 23 => ⟨S340000x1, .i32⟩
  | 24 => ⟨S20000, .f32⟩
  | 25 => ⟨S_, .f32⟩
  | 26 => ⟨S20000, .f32⟩
  | 27 => ⟨S20000, .i1⟩
  | 28 => ⟨S20000, .f32⟩
  | 29 => ⟨S_, .f32⟩
  | 30 => ⟨S_, .f32⟩
  | 31 => ⟨S20000, .f32⟩
  | 32 => ⟨S20000, .f32⟩
  | 33 => ⟨S_, .i32⟩
  | 34 => ⟨S340000, .i32⟩
  | 35 => ⟨S340000, .i1⟩
  | 36 => ⟨S_, .i32⟩
  | 37 => ⟨S340000, .i32⟩
  | 38 => ⟨S340000, .i32⟩
  | 39 => ⟨S340000, .i32⟩
  | 40 => ⟨S340000x1, .i32⟩
  | 41 => ⟨S340000, .f32⟩
  | 42 => ⟨S_, .i32⟩
  | 43 => ⟨S340000, .i32⟩
  | 44 => ⟨S340000, .i1⟩
  | 45 => ⟨S_, .i32⟩
  | 46 => ⟨S340000, .i32⟩
  | 47 => ⟨S340000, .i32⟩
  | 48 => ⟨S340000, .i32⟩
  | 49 => ⟨S340000x1, .i32⟩
  | 50 => ⟨S340000, .f32⟩
  | 51 => ⟨S340000, .f32⟩
  | 52 => ⟨S_, .i32⟩
  | 53 => ⟨S340000, .i32⟩
  | 54 => ⟨S340000, .i1⟩
  | 55 => ⟨S_, .i32⟩
  | 56 => ⟨S340000, .i32⟩
  | 57 => ⟨S340000, .i32⟩
  | 58 => ⟨S340000, .i32⟩
  | 59 => ⟨S340000x1, .i32⟩
  | 60 => ⟨S340000x256, .f32⟩
  | 61 => ⟨S340000x1, .f32⟩
  | 62 => ⟨S340000x256, .f32⟩
  | 63 => ⟨S340000x256, .f32⟩
  | 64 => ⟨S_, .f32⟩
  | 65 => ⟨S20000x256, .f32⟩
  | 66 => ⟨S340000x1, .i32⟩
  | 67 => ⟨S20000x256, .f32⟩
  | 68 => ⟨S1x256, .f32⟩
  | 69 => ⟨S20000x256, .f32⟩
  | 70 => ⟨S20000x256, .f32⟩
  | 71 => ⟨S20000x256, .f32⟩
  | 72 => ⟨S20000x256, .f32⟩
  | 73 => ⟨S_, .f32⟩
  | 74 => ⟨S340000, .f32⟩
  | 75 => ⟨S_, .f32⟩
  | 76 => ⟨S20000, .f32⟩
  | 77 => ⟨S340000x1, .i32⟩
  | 78 => ⟨S20000, .f32⟩
  | 79 => ⟨S_, .f32⟩
  | 80 => ⟨S20000, .f32⟩
  | 81 => ⟨S20000, .i1⟩
  | 82 => ⟨S20000, .f32⟩
  | 83 => ⟨S_, .f32⟩
  | 84 => ⟨S_, .f32⟩
  | 85 => ⟨S20000, .f32⟩
  | 86 => ⟨S20000, .f32⟩
  | 87 => ⟨S_, .i32⟩
  | 88 => ⟨S340000, .i32⟩
  | 89 => ⟨S340000, .i1⟩
  | 90 => ⟨S_, .i32⟩
  | 91 => ⟨S340000, .i32⟩
  | 92 => ⟨S340000, .i32⟩
  | 93 => ⟨S340000, .i32⟩
  | 94 => ⟨S340000x1, .i32⟩
  | 95 => ⟨S340000, .f32⟩
  | 96 => ⟨S_, .i32⟩
  | 97 => ⟨S340000, .i32⟩
  | 98 => ⟨S340000, .i1⟩
  | 99 => ⟨S_, .i32⟩
  | 100 => ⟨S340000, .i32⟩
  | 101 => ⟨S340000, .i32⟩
  | 102 => ⟨S340000, .i32⟩
  | 103 => ⟨S340000x1, .i32⟩
  | 104 => ⟨S340000, .f32⟩
  | 105 => ⟨S340000, .f32⟩
  | 106 => ⟨S_, .i32⟩
  | 107 => ⟨S340000, .i32⟩
  | 108 => ⟨S340000, .i1⟩
  | 109 => ⟨S_, .i32⟩
  | 110 => ⟨S340000, .i32⟩
  | 111 => ⟨S340000, .i32⟩
  | 112 => ⟨S340000, .i32⟩
  | 113 => ⟨S340000x1, .i32⟩
  | 114 => ⟨S340000x256, .f32⟩
  | 115 => ⟨S340000x1, .f32⟩
  | 116 => ⟨S340000x256, .f32⟩
  | 117 => ⟨S340000x256, .f32⟩
  | 118 => ⟨S_, .f32⟩
  | 119 => ⟨S20000x256, .f32⟩
  | 120 => ⟨S340000x1, .i32⟩
  | 121 => ⟨S20000x256, .f32⟩
  | 122 => ⟨S1x256, .f32⟩
  | 123 => ⟨S20000x256, .f32⟩
  | 124 => ⟨S20000x256, .f32⟩
  | 125 => ⟨S20000x256, .f32⟩
  | 126 => ⟨S20000x512, .f32⟩
  | 127 => ⟨S20000x256, .f32⟩
  | _ => ⟨S20000x256, .f32⟩

abbrev hbmTy0_1 (i : Nat) : BufTy := match i % 128 with
  | 0 => ⟨S_, .f32⟩
  | 1 => ⟨S340000, .f32⟩
  | 2 => ⟨S_, .f32⟩
  | 3 => ⟨S20000, .f32⟩
  | 4 => ⟨S340000x1, .i32⟩
  | 5 => ⟨S20000, .f32⟩
  | 6 => ⟨S_, .f32⟩
  | 7 => ⟨S20000, .f32⟩
  | 8 => ⟨S20000, .i1⟩
  | 9 => ⟨S20000, .f32⟩
  | 10 => ⟨S_, .f32⟩
  | 11 => ⟨S_, .f32⟩
  | 12 => ⟨S20000, .f32⟩
  | 13 => ⟨S20000, .f32⟩
  | 14 => ⟨S_, .i32⟩
  | 15 => ⟨S340000, .i32⟩
  | 16 => ⟨S340000, .i1⟩
  | 17 => ⟨S_, .i32⟩
  | 18 => ⟨S340000, .i32⟩
  | 19 => ⟨S340000, .i32⟩
  | 20 => ⟨S340000, .i32⟩
  | 21 => ⟨S340000x1, .i32⟩
  | 22 => ⟨S340000, .f32⟩
  | 23 => ⟨S_, .i32⟩
  | 24 => ⟨S340000, .i32⟩
  | 25 => ⟨S340000, .i1⟩
  | 26 => ⟨S_, .i32⟩
  | 27 => ⟨S340000, .i32⟩
  | 28 => ⟨S340000, .i32⟩
  | 29 => ⟨S340000, .i32⟩
  | 30 => ⟨S340000x1, .i32⟩
  | 31 => ⟨S340000, .f32⟩
  | 32 => ⟨S340000, .f32⟩
  | 33 => ⟨S_, .i32⟩
  | 34 => ⟨S340000, .i32⟩
  | 35 => ⟨S340000, .i1⟩
  | 36 => ⟨S_, .i32⟩
  | 37 => ⟨S340000, .i32⟩
  | 38 => ⟨S340000, .i32⟩
  | 39 => ⟨S340000, .i32⟩
  | 40 => ⟨S340000x1, .i32⟩
  | 41 => ⟨S340000x256, .f32⟩
  | 42 => ⟨S340000x1, .f32⟩
  | 43 => ⟨S340000x256, .f32⟩
  | 44 => ⟨S340000x256, .f32⟩
  | 45 => ⟨S_, .f32⟩
  | 46 => ⟨S20000x256, .f32⟩
  | 47 => ⟨S340000x1, .i32⟩
  | 48 => ⟨S20000x256, .f32⟩
  | 49 => ⟨S1x256, .f32⟩
  | 50 => ⟨S20000x256, .f32⟩
  | 51 => ⟨S20000x256, .f32⟩
  | 52 => ⟨S20000x256, .f32⟩
  | 53 => ⟨S20000x256, .f32⟩
  | 54 => ⟨S_, .f32⟩
  | 55 => ⟨S340000, .f32⟩
  | 56 => ⟨S_, .f32⟩
  | 57 => ⟨S20000, .f32⟩
  | 58 => ⟨S340000x1, .i32⟩
  | 59 => ⟨S20000, .f32⟩
  | 60 => ⟨S_, .f32⟩
  | 61 => ⟨S20000, .f32⟩
  | 62 => ⟨S20000, .i1⟩
  | 63 => ⟨S20000, .f32⟩
  | 64 => ⟨S_, .f32⟩
  | 65 => ⟨S_, .f32⟩
  | 66 => ⟨S20000, .f32⟩
  | 67 => ⟨S20000, .f32⟩
  | 68 => ⟨S_, .i32⟩
  | 69 => ⟨S340000, .i32⟩
  | 70 => ⟨S340000, .i1⟩
  | 71 => ⟨S_, .i32⟩
  | 72 => ⟨S340000, .i32⟩
  | 73 => ⟨S340000, .i32⟩
  | 74 => ⟨S340000, .i32⟩
  | 75 => ⟨S340000x1, .i32⟩
  | 76 => ⟨S340000, .f32⟩
  | 77 => ⟨S_, .i32⟩
  | 78 => ⟨S340000, .i32⟩
  | 79 => ⟨S340000, .i1⟩
  | 80 => ⟨S_, .i32⟩
  | 81 => ⟨S340000, .i32⟩
  | 82 => ⟨S340000, .i32⟩
  | 83 => ⟨S340000, .i32⟩
  | 84 => ⟨S340000x1, .i32⟩
  | 85 => ⟨S340000, .f32⟩
  | 86 => ⟨S340000, .f32⟩
  | 87 => ⟨S_, .i32⟩
  | 88 => ⟨S340000, .i32⟩
  | 89 => ⟨S340000, .i1⟩
  | 90 => ⟨S_, .i32⟩
  | 91 => ⟨S340000, .i32⟩
  | 92 => ⟨S340000, .i32⟩
  | 93 => ⟨S340000, .i32⟩
  | 94 => ⟨S340000x1, .i32⟩
  | 95 => ⟨S340000x256, .f32⟩
  | 96 => ⟨S340000x1, .f32⟩
  | 97 => ⟨S340000x256, .f32⟩
  | 98 => ⟨S340000x256, .f32⟩
  | 99 => ⟨S_, .f32⟩
  | 100 => ⟨S20000x256, .f32⟩
  | 101 => ⟨S340000x1, .i32⟩
  | 102 => ⟨S20000x256, .f32⟩
  | 103 => ⟨S1x256, .f32⟩
  | 104 => ⟨S20000x256, .f32⟩
  | 105 => ⟨S20000x256, .f32⟩
  | _ => ⟨S20000x256, .f32⟩

abbrev hbmTy (i : Nat) : BufTy := match i / 128 with
  | 0 => hbmTy0_0 i
  | 1 => hbmTy0_1 i
  | _ => ⟨S20000x256, .f32⟩

abbrev bufTy : (tb : Table) → Fin (tcTables nBuf tb) → BufTy
  | .hbm, ⟨i, _⟩ => hbmTy i
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_12 : Ref sig .tc := ⟨.hbm, 83, rfl⟩
abbrev main_call1_v0 : Ref sig .tc := ⟨.hbm, 84, rfl⟩
abbrev main_call1_v1 : Ref sig .tc := ⟨.hbm, 85, rfl⟩
abbrev main_v56 : Ref sig .tc := ⟨.hbm, 86, rfl⟩
abbrev main_c_13 : Ref sig .tc := ⟨.hbm, 87, rfl⟩
abbrev main_v57 : Ref sig .tc := ⟨.hbm, 88, rfl⟩
abbrev main_v58 : Ref sig .tc := ⟨.hbm, 89, rfl⟩
abbrev main_c_14 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c_15 : Ref sig .tc := ⟨.hbm, 96, rfl⟩
abbrev main_v64 : Ref sig .tc := ⟨.hbm, 97, rfl⟩
abbrev main_v65 : Ref sig .tc := ⟨.hbm, 98, rfl⟩
abbrev main_c_16 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_17 : Ref sig .tc := ⟨.hbm, 106, rfl⟩
abbrev main_v72 : Ref sig .tc := ⟨.hbm, 107, rfl⟩
abbrev main_v73 : Ref sig .tc := ⟨.hbm, 108, rfl⟩
abbrev main_c_18 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_19 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_20 : Ref sig .tc := ⟨.hbm, 128, rfl⟩
abbrev main_v91 : Ref sig .tc := ⟨.hbm, 129, rfl⟩
abbrev main_cst_21 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_22 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_23 : Ref sig .tc := ⟨.hbm, 138, rfl⟩
abbrev main_call2_v0 : Ref sig .tc := ⟨.hbm, 139, rfl⟩
abbrev main_call2_v1 : Ref sig .tc := ⟨.hbm, 140, rfl⟩
abbrev main_v98 : Ref sig .tc := ⟨.hbm, 141, rfl⟩
abbrev main_c_24 : Ref sig .tc := ⟨.hbm, 142, rfl⟩
abbrev main_v99 : Ref sig .tc := ⟨.hbm, 143, rfl⟩
abbrev main_v100 : Ref sig .tc := ⟨.hbm, 144, rfl⟩
abbrev main_c_25 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_c_26 : Ref sig .tc := ⟨.hbm, 151, rfl⟩
abbrev main_v106 : Ref sig .tc := ⟨.hbm, 152, rfl⟩
abbrev main_v107 : Ref sig .tc := ⟨.hbm, 153, rfl⟩
abbrev main_c_27 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_c_28 : Ref sig .tc := ⟨.hbm, 161, rfl⟩
abbrev main_v114 : Ref sig .tc := ⟨.hbm, 162, rfl⟩
abbrev main_v115 : Ref sig .tc := ⟨.hbm, 163, rfl⟩
abbrev main_c_29 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_cst_30 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_cst_31 : Ref sig .tc := ⟨.hbm, 182, rfl⟩
abbrev main_v132 : Ref sig .tc := ⟨.hbm, 183, rfl⟩
abbrev main_cst_32 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_cst_33 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_cst_34 : Ref sig .tc := ⟨.hbm, 192, rfl⟩
abbrev main_call3_v0 : Ref sig .tc := ⟨.hbm, 193, rfl⟩
abbrev main_call3_v1 : Ref sig .tc := ⟨.hbm, 194, rfl⟩
abbrev main_v139 : Ref sig .tc := ⟨.hbm, 195, rfl⟩
abbrev main_c_35 : Ref sig .tc := ⟨.hbm, 196, rfl⟩
abbrev main_v140 : Ref sig .tc := ⟨.hbm, 197, rfl⟩
abbrev main_v141 : Ref sig .tc := ⟨.hbm, 198, rfl⟩
abbrev main_c_36 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_c_37 : Ref sig .tc := ⟨.hbm, 205, rfl⟩
abbrev main_v147 : Ref sig .tc := ⟨.hbm, 206, rfl⟩
abbrev main_v148 : Ref sig .tc := ⟨.hbm, 207, rfl⟩
abbrev main_c_38 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_c_39 : Ref sig .tc := ⟨.hbm, 215, rfl⟩
abbrev main_v155 : Ref sig .tc := ⟨.hbm, 216, rfl⟩
abbrev main_v156 : Ref sig .tc := ⟨.hbm, 217, rfl⟩
abbrev main_c_40 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_cst_41 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S20000_S340000_d0 : Shape.Concatenates [S320000, S20000] S340000 0
  slices_S2x320000_S1x320000_1_0 : S2x320000.Slices ![1, 0] S1x320000
  bcast_S_S340000 : S_.BroadcastsInDim S340000 (![] : Fin 0 → Fin S340000.rank)
  bcast_S_S20000 : S_.BroadcastsInDim S20000 (![] : Fin 0 → Fin S20000.rank)
  bcast_S340000_S340000x1_0 : S340000.BroadcastsInDim S340000x1 (![0] : Fin 1 → Fin S340000x1.rank)
  bcast_S340000x1_S340000x256_0_1 : S340000x1.BroadcastsInDim S340000x256 (![0, 1] : Fin 2 → Fin S340000x256.rank)
  bcast_S_S20000x256 : S_.BroadcastsInDim S20000x256 (![] : Fin 0 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  concatenates_S20000x256_S20000x256_S20000x512_d1 : Shape.Concatenates [S20000x256, S20000x256] S20000x512 1
  dot_S20000x256_S256x256_S20000x256_1_0_0_1_n_n_wf : DotDims.WF S20000x256 S256x256 S20000x256 [1] [0] [0] [1] [] []
  scatter_S20000_S340000x1_S340000_n_0_0_1_wf : ScatterDims.WF S20000 S340000x1 S340000 [] [0] [0] 1
  gather_S20000_S340000x1_S340000_n_0_n_n_0_1_1_wf : GatherDims.WF S20000 S340000x1 S340000 [] [0] [] [0] [] 1 ![1]
  gather_S20000x256_S340000x1_S340000x256_1_0_n_n_0_1_1256_wf : GatherDims.WF S20000x256 S340000x1 S340000x256 [1] [0] [] [0] [] 1 ![1, 256]
  scatter_S20000x256_S340000x1_S340000x256_1_0_0_1_wf : ScatterDims.WF S20000x256 S340000x1 S340000x256 [1] [0] [0] 1
  dot_S20000x128_S128x256_S20000x256_1_0_0_1_n_n_wf : DotDims.WF S20000x128 S128x256 S20000x256 [1] [0] [0] [1] [] []
  dot_S20000x512_S512x256_S20000x256_1_0_0_1_n_n_wf : DotDims.WF S20000x512 S512x256 S20000x256 [1] [0] [0] [1] [] []

variable [Facts₀]

def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def scatter_S20000_S340000x1_S340000_n_0_0_1 : ScatterDims S20000 S340000x1 S340000 where
  updateWindowDims := []
  insertedWindowDims := [0]
  scatterDimsToOperandDims := [0]
  indexVectorDim := 1
  wf := scatter_S20000_S340000x1_S340000_n_0_0_1_wf
def gather_S20000_S340000x1_S340000_n_0_n_n_0_1_1 : GatherDims S20000 S340000x1 S340000 where
  offsetDims := []
  collapsedSliceDims := [0]
  operandBatchingDims := []
  startIndicesBatchingDims := []
  startIndexMap := [0]
  indexVectorDim := 1
  sliceSizes := ![1]
  wf := gather_S20000_S340000x1_S340000_n_0_n_n_0_1_1_wf
def gather_S20000x256_S340000x1_S340000x256_1_0_n_n_0_1_1256 : GatherDims S20000x256 S340000x1 S340000x256 where
  offsetDims := [1]
  collapsedSliceDims := [0]
  operandBatchingDims := []
  startIndicesBatchingDims := []
  startIndexMap := [0]
  indexVectorDim := 1
  sliceSizes := ![1, 256]
  wf := gather_S20000x256_S340000x1_S340000x256_1_0_n_n_0_1_1256_wf
def scatter_S20000x256_S340000x1_S340000x256_1_0_0_1 : ScatterDims S20000x256 S340000x1 S340000x256 where
  updateWindowDims := [1]
  insertedWindowDims := [0]
  scatterDimsToOperandDims := [0]
  indexVectorDim := 1
  wf := scatter_S20000x256_S340000x1_S340000x256_1_0_0_1_wf
def dot_S20000x128_S128x256_S20000x256_1_0_0_1_n_n : DotDims S20000x128 S128x256 S20000x256 where
  lhsContracting := [1]
  rhsContracting := [0]
  lhsNonContracting := [0]
  rhsNonContracting := [1]
  lhsBatch := []
  rhsBatch := []
  wf := dot_S20000x128_S128x256_S20000x256_1_0_0_1_n_n_wf
def dot_S20000x512_S512x256_S20000x256_1_0_0_1_n_n : DotDims S20000x512 S512x256 S20000x256 where
  lhsContracting := [1]
  rhsContracting := [0]
  lhsNonContracting := [0]
  rhsNonContracting := [1]
  lhsBatch := []
  rhsBatch := []
  wf := dot_S20000x512_S512x256_S20000x256_1_0_0_1_n_n_wf

class Facts : Prop extends Facts₀ where

variable [Facts]
-- ==== Proof.KernelRun.lean ====
/-
  The idealized kernel's run, with its result named.

  The launch is sixteen segments in a row: stretches of host operations and eight kernel regions. Every segment takes
  the TensorCore's buffer contents at its entry to definite contents at its exit — a host stretch to the contents
  after its operations, a region to the entry contents with its windows' arrays replaced by what its write-backs
  leave — so the contents after the last segment are one fixed assignment, the sixteenth boundary of that fold. Every
  weakly fair execution terminates, without a fault, with EVERY unscoped buffer at that boundary's contents. Kept here:
  the result buffer at its boundary contents, and the eleven arguments as launched.
-/
import proofs.«135464_j16286515987224_1_alg».proof.Proof.Gen.KernelIdeal.Frame

set_option maxRecDepth 16384

noncomputable section

namespace Cert.Gcn.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the launch terminates, nothing faulting, with the result buffer at the last
    boundary's contents and each argument array as launched: the launch over the sixteen segments, the last thread
    state read against the final state, the result by its membership among the unscoped buffers and each argument by
    reading it back through the fold. -/
theorem run_named : θ_run defs (onTc (τ := τ) (main (F := F))) ⟨m, fun _ => 0, ρ⟩ (fun r => ∀ c : Dev nD,
      r.2.mem ((c.tc : Thread nD τ).loc main_v94) = W16 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v94 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c)⟩)

end Cert.Gcn.KernelRun

end
-- ==== Proof.Carry.lean ====
/-
  Buffers that a stretch of the launch leaves alone.

  The contents of the TensorCore's buffers at the sixteen segment boundaries are a fold from the launch memory. A host
  stretch changes only the buffers its operations write; a kernel region changes only its output array (an input
  array it reads through a window ends as it was entered, every other buffer is untouched). So a buffer read at a
  later boundary is the same buffer at an earlier one, as long as nothing in between writes it: each argument all the
  way back to the launch memory, the edge sources, edge targets and edge weights (computed once, before the first
  region) back to the boundary where they were computed, and the first layer's activated output across the second
  layer.
-/
import proofs.«135464_j16286515987224_1_alg».proof.Proof.Gen.KernelIdeal.Frame

set_option maxRecDepth 16384

noncomputable section

namespace Cert.Gcn.Carry

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-- A host stretch keeps a buffer none of its operations writes: each operation's result buffer is another one. -/
local macro "host_keeps " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

theorem keep_arg0_3_0 (c : Dev nD) : W3 m ρ c (Proc.devRef .tc main_arg0) = m ((c : Thread nD τ).loc main_arg0) :=
  calc W3 m ρ c (Proc.devRef .tc main_arg0)
    _ = W2 m ρ c (Proc.devRef .tc main_arg0) := by host_keeps hostOps0_2
    _ = W1 m ρ c (Proc.devRef .tc main_arg0) := by host_keeps hostOps0_1
    _ = W0 m ρ c (Proc.devRef .tc main_arg0) := by host_keeps hostOps0
    _ = m ((c : Thread nD τ).loc main_arg0) := rfl

theorem keep_arg3_3_0 (c : Dev nD) : W3 m ρ c (Proc.devRef .tc main_arg3) = m ((c : Thread nD τ).loc main_arg3) :=
  calc W3 m ρ c (Proc.devRef .tc main_arg3)
    _ = W2 m ρ c (Proc.devRef .tc main_arg3) := by host_keeps hostOps0_2
    _ = W1 m ρ c (Proc.devRef .tc main_arg3) := by host_keeps hostOps0_1
    _ = W0 m ρ c (Proc.devRef .tc main_arg3) := by host_keeps hostOps0
    _ = m ((c : Thread nD τ).loc main_arg3) := rfl

theorem keep_arg4_4_0 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by host_keeps hostOps0_2
    _ = W1 m ρ c (Proc.devRef .tc main_arg4) := by host_keeps hostOps0_1
    _ = W0 m ρ c (Proc.devRef .tc main_arg4) := by host_keeps hostOps0
    _ = m ((c : Thread nD τ).loc main_arg4) := rfl

theorem keep_arg1_6_0 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := by host_keeps hostOps1
    _ = W3 m ρ c (Proc.devRef .tc main_arg1) := W4_of_ne m ρ c main_arg1 (by decide)
    _ = W2 m ρ c (Proc.devRef .tc main_arg1) := by host_keeps hostOps0_2
    _ = W1 m ρ c (Proc.devRef .tc main_arg1) := by host_keeps hostOps0_1
    _ = W0 m ρ c (Proc.devRef .tc main_arg1) := by host_keeps hostOps0
    _ = m ((c : Thread nD τ).loc main_arg1) := rfl

theorem keep_arg5_6_0 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := by host_keeps hostOps1
    _ = W3 m ρ c (Proc.devRef .tc main_arg5) := W4_of_ne m ρ c main_arg5 (by decide)
    _ = W2 m ρ c (Proc.devRef .tc main_arg5) := by host_keeps hostOps0_2
    _ = W1 m ρ c (Proc.devRef .tc main_arg5) := by host_keeps hostOps0_1
    _ = W0 m ρ c (Proc.devRef .tc main_arg5) := by host_keeps hostOps0
    _ = m ((c : Thread nD τ).loc main_arg5) := rfl

theorem keep_arg6_7_0 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := by host_keeps hostOps1
    _ = W3 m ρ c (Proc.devRef .tc main_arg6) := W4_of_ne m ρ c main_arg6 (by decide)
    _ = W2 m ρ c (Proc.devRef .tc main_arg6) := by host_keeps hostOps0_2
    _ = W1 m ρ c (Proc.devRef .tc main_arg6) := by host_keeps hostOps0_1
    _ = W0 m ρ c (Proc.devRef .tc main_arg6) := by host_keeps hostOps0
    _ = m ((c : Thread nD τ).loc main_arg6) := rfl

theorem keep_arg7_10_0 (c : Dev nD) : W10 m ρ c (Proc.devRef .tc main_arg7) = m ((c : Thread nD τ).loc main_arg7) :=
  calc W10 m ρ c (Proc.devRef .tc main_arg7)
    _ = W9 m ρ c (Proc.devRef .tc main_arg7) := by host_keeps hostOps4
    _ = W8 m ρ c (Proc.devRef .tc main_arg7) := W9_of_ne m ρ c main_arg7 (by decide)
    _ = W7 m ρ c (Proc.devRef .tc main_arg7) := by host_keeps hostOps3
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := by host_keeps hostOps1
    _ = W3 m ρ c (Proc.devRef .tc main_arg7) := W4_of_ne m ρ c main_arg7 (by decide)
    _ = W2 m ρ c (Proc.devRef .tc main_arg7) := by host_keeps hostOps0_2
    _ = W1 m ρ c (Proc.devRef .tc main_arg7) := by host_keeps hostOps0_1
    _ = W0 m ρ c (Proc.devRef .tc main_arg7) := by host_keeps hostOps0
    _ = m ((c : Thread nD τ).loc main_arg7) := rfl

theorem keep_arg8_11_0 (c : Dev nD) : W11 m ρ c (Proc.devRef .tc main_arg8) = m ((c : Thread nD τ).loc main_arg8) :=
  calc W11 m ρ c (Proc.devRef .tc main_arg8)
    _ = W10 m ρ c (Proc.devRef .tc main_arg8) := W11_of_ne m ρ c main_arg8 (by decide)
    _ = W9 m ρ c (Proc.devRef .tc main_arg8) := by host_keeps hostOps4
    _ = W8 m ρ c (Proc.devRef .tc main_arg8) := W9_of_ne m ρ c main_arg8 (by decide)
    _ = W7 m ρ c (Proc.devRef .tc main_arg8) := by host_keeps hostOps3
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := by host_keeps hostOps1
    _ = W3 m ρ c (Proc.devRef .tc main_arg8) := W4_of_ne m ρ c main_arg8 (by decide)
    _ = W2 m ρ c (Proc.devRef .tc main_arg8) := by host_keeps hostOps0_2
    _ = W1 m ρ c (Proc.devRef .tc main_arg8) := by host_keeps hostOps0_1
    _ = W0 m ρ c (Proc.devRef .tc main_arg8) := by host_keeps hostOps0
    _ = m ((c : Thread nD τ).loc main_arg8) := rfl

theorem keep_arg9_13_0 (c : Dev nD) : W13 m ρ c (Proc.devRef .tc main_arg9) = m ((c : Thread nD τ).loc main_arg9) :=
  calc W13 m ρ c (Proc.devRef .tc main_arg9)
    _ = W12 m ρ c (Proc.devRef .tc main_arg9) := W13_of_ne m ρ c main_arg9 (by decide)
    _ = W11 m ρ c (Proc.devRef .tc main_arg9) := by host_keeps hostOps5
    _ = W10 m ρ c (Proc.devRef .tc main_arg9) := W11_of_ne m ρ c main_arg9 (by decide)
    _ = W9 m ρ c (Proc.devRef .tc main_arg9) := by host_keeps hostOps4
    _ = W8 m ρ c (Proc.devRef .tc main_arg9) := W9_of_ne m ρ c main_arg9 (by decide)
    _ = W7 m ρ c (Proc.devRef .tc main_arg9) := by host_keeps hostOps3
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := by host_keeps hostOps1
    _ = W3 m ρ c (Proc.devRef .tc main_arg9) := W4_of_ne m ρ c main_arg9 (by decide)
    _ = W2 m ρ c (Proc.devRef .tc main_arg9) := by host_keeps hostOps0_2
    _ = W1 m ρ c (Proc.devRef .tc main_arg9) := by host_keeps hostOps0_1
    _ = W0 m ρ c (Proc.devRef .tc main_arg9) := by host_keeps hostOps0
    _ = m ((c : Thread nD τ).loc main_arg9) := rfl

theorem keep_arg10_14_0 (c : Dev nD) : W14 m ρ c (Proc.devRef .tc main_arg10) = m ((c : Thread nD τ).loc main_arg10) :=
  calc W14 m ρ c (Proc.devRef .tc main_arg10)
    _ = W13 m ρ c (Proc.devRef .tc main_arg10) := W14_of_ne m ρ c main_arg10 (by decide)
    _ = W12 m ρ c (Proc.devRef .tc main_arg10) := W13_of_ne m ρ c main_arg10 (by decide)
    _ = W11 m ρ c (Proc.devRef .tc main_arg10) := by host_keeps hostOps5
    _ = W10 m ρ c (Proc.devRef .tc main_arg10) := W11_of_ne m ρ c main_arg10 (by decide)
    _ = W9 m ρ c (Proc.devRef .tc main_arg10) := by host_keeps hostOps4
    _ = W8 m ρ c (Proc.devRef .tc main_arg10) := W9_of_ne m ρ c main_arg10 (by decide)
    _ = W7 m ρ c (Proc.devRef .tc main_arg10) := by host_keeps hostOps3
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := by host_keeps hostOps1
    _ = W3 m ρ c (Proc.devRef .tc main_arg10) := W4_of_ne m ρ c main_arg10 (by decide)
    _ = W2 m ρ c (Proc.devRef .tc main_arg10) := by host_keeps hostOps0_2
    _ = W1 m ρ c (Proc.devRef .tc main_arg10) := by host_keeps hostOps0_1
    _ = W0 m ρ c (Proc.devRef .tc main_arg10) := by host_keeps hostOps0
    _ = m ((c : Thread nD τ).loc main_arg10) := rfl

theorem keep_v3_4_3 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

theorem keep_v6_4_3 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

theorem keep_v29_4_3 (c : Dev nD) : W4 m ρ c (Proc.devRef .tc main_v29) = W3 m ρ c (Proc.devRef .tc main_v29) :=
  calc W4 m ρ c (Proc.devRef .tc main_v29)
    _ = W3 m ρ c (Proc.devRef .tc main_v29) := W4_of_ne m ρ c main_v29 (by decide)

theorem keep_v3_7_3 (c : Dev nD) : W7 m ρ c (Proc.devRef .tc main_v3) = W3 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by host_keeps hostOps1
    _ = W3 m ρ c (Proc.devRef .tc main_v3) := W4_of_ne m ρ c main_v3 (by decide)

theorem keep_v6_7_3 (c : Dev nD) : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by host_keeps hostOps1
    _ = W3 m ρ c (Proc.devRef .tc main_v6) := W4_of_ne m ρ c main_v6 (by decide)

theorem keep_v29_7_3 (c : Dev nD) : W7 m ρ c (Proc.devRef .tc main_v29) = W3 m ρ c (Proc.devRef .tc main_v29) :=
  calc W7 m ρ c (Proc.devRef .tc main_v29)
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := by host_keeps hostOps1
    _ = W3 m ρ c (Proc.devRef .tc main_v29) := W4_of_ne m ρ c main_v29 (by decide)

theorem keep_v3_11_3 (c : Dev nD) : W11 m ρ c (Proc.devRef .tc main_v3) = W3 m ρ c (Proc.devRef .tc main_v3) :=
  calc W11 m ρ c (Proc.devRef .tc main_v3)
    _ = W10 m ρ c (Proc.devRef .tc main_v3) := W11_of_ne m ρ c main_v3 (by decide)
    _ = W9 m ρ c (Proc.devRef .tc main_v3) := by host_keeps hostOps4
    _ = W8 m ρ c (Proc.devRef .tc main_v3) := W9_of_ne m ρ c main_v3 (by decide)
    _ = W7 m ρ c (Proc.devRef .tc main_v3) := by host_keeps hostOps3
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by host_keeps hostOps1
    _ = W3 m ρ c (Proc.devRef .tc main_v3) := W4_of_ne m ρ c main_v3 (by decide)

theorem keep_v6_11_3 (c : Dev nD) : W11 m ρ c (Proc.devRef .tc main_v6) = W3 m ρ c (Proc.devRef .tc main_v6) :=
  calc W11 m ρ c (Proc.devRef .tc main_v6)
    _ = W10 m ρ c (Proc.devRef .tc main_v6) := W11_of_ne m ρ c main_v6 (by decide)
    _ = W9 m ρ c (Proc.devRef .tc main_v6) := by host_keeps hostOps4
    _ = W8 m ρ c (Proc.devRef .tc main_v6) := W9_of_ne m ρ c main_v6 (by decide)
    _ = W7 m ρ c (Proc.devRef .tc main_v6) := by host_keeps hostOps3
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by host_keeps hostOps1
    _ = W3 m ρ c (Proc.devRef .tc main_v6) := W4_of_ne m ρ c main_v6 (by decide)

theorem keep_v29_11_3 (c : Dev nD) : W11 m ρ c (Proc.devRef .tc main_v29) = W3 m ρ c (Proc.devRef .tc main_v29) :=
  calc W11 m ρ c (Proc.devRef .tc main_v29)
    _ = W10 m ρ c (Proc.devRef .tc main_v29) := W11_of_ne m ρ c main_v29 (by decide)
    _ = W9 m ρ c (Proc.devRef .tc main_v29) := by host_keeps hostOps4
    _ = W8 m ρ c (Proc.devRef .tc main_v29) := W9_of_ne m ρ c main_v29 (by decide)
    _ = W7 m ρ c (Proc.devRef .tc main_v29) := by host_keeps hostOps3
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := by host_keeps hostOps1
    _ = W3 m ρ c (Proc.devRef .tc main_v29) := W4_of_ne m ρ c main_v29 (by decide)

theorem keep_v3_14_3 (c : Dev nD) : W14 m ρ c (Proc.devRef .tc main_v3) = W3 m ρ c (Proc.devRef .tc main_v3) :=
  calc W14 m ρ c (Proc.devRef .tc main_v3)
    _ = W13 m ρ c (Proc.devRef .tc main_v3) := W14_of_ne m ρ c main_v3 (by decide)
    _ = W12 m ρ c (Proc.devRef .tc main_v3) := W13_of_ne m ρ c main_v3 (by decide)
    _ = W11 m ρ c (Proc.devRef .tc main_v3) := by host_keeps hostOps5
    _ = W10 m ρ c (Proc.devRef .tc main_v3) := W11_of_ne m ρ c main_v3 (by decide)
    _ = W9 m ρ c (Proc.devRef .tc main_v3) := by host_keeps hostOps4
    _ = W8 m ρ c (Proc.devRef .tc main_v3) := W9_of_ne m ρ c main_v3 (by decide)
    _ = W7 m ρ c (Proc.devRef .tc main_v3) := by host_keeps hostOps3
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by host_keeps hostOps1
    _ = W3 m ρ c (Proc.devRef .tc main_v3) := W4_of_ne m ρ c main_v3 (by decide)

theorem keep_v6_14_3 (c : Dev nD) : W14 m ρ c (Proc.devRef .tc main_v6) = W3 m ρ c (Proc.devRef .tc main_v6) :=
  calc W14 m ρ c (Proc.devRef .tc main_v6)
    _ = W13 m ρ c (Proc.devRef .tc main_v6) := W14_of_ne m ρ c main_v6 (by decide)
    _ = W12 m ρ c (Proc.devRef .tc main_v6) := W13_of_ne m ρ c main_v6 (by decide)
    _ = W11 m ρ c (Proc.devRef .tc main_v6) := by host_keeps hostOps5
    _ = W10 m ρ c (Proc.devRef .tc main_v6) := W11_of_ne m ρ c main_v6 (by decide)
    _ = W9 m ρ c (Proc.devRef .tc main_v6) := by host_keeps hostOps4
    _ = W8 m ρ c (Proc.devRef .tc main_v6) := W9_of_ne m ρ c main_v6 (by decide)
    _ = W7 m ρ c (Proc.devRef .tc main_v6) := by host_keeps hostOps3
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by host_keeps hostOps1
    _ = W3 m ρ c (Proc.devRef .tc main_v6) := W4_of_ne m ρ c main_v6 (by decide)

theorem keep_v29_14_3 (c : Dev nD) : W14 m ρ c (Proc.devRef .tc main_v29) = W3 m ρ c (Proc.devRef .tc main_v29) :=
  calc W14 m ρ c (Proc.devRef .tc main_v29)
    _ = W13 m ρ c (Proc.devRef .tc main_v29) := W14_of_ne m ρ c main_v29 (by decide)
    _ = W12 m ρ c (Proc.devRef .tc main_v29) := W13_of_ne m ρ c main_v29 (by decide)
    _ = W11 m ρ c (Proc.devRef .tc main_v29) := by host_keeps hostOps5
    _ = W10 m ρ c (Proc.devRef .tc main_v29) := W11_of_ne m ρ c main_v29 (by decide)
    _ = W9 m ρ c (Proc.devRef .tc main_v29) := by host_keeps hostOps4
    _ = W8 m ρ c (Proc.devRef .tc main_v29) := W9_of_ne m ρ c main_v29 (by decide)
    _ = W7 m ρ c (Proc.devRef .tc main_v29) := by host_keeps hostOps3
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := by host_keeps hostOps1
    _ = W3 m ρ c (Proc.devRef .tc main_v29) := W4_of_ne m ρ c main_v29 (by decide)

theorem keep_v45_9_6 (c : Dev nD) : W9 m ρ c (Proc.devRef .tc main_v45) = W6 m ρ c (Proc.devRef .tc main_v45) :=
  calc W9 m ρ c (Proc.devRef .tc main_v45)
    _ = W8 m ρ c (Proc.devRef .tc main_v45) := W9_of_ne m ρ c main_v45 (by decide)
    _ = W7 m ρ c (Proc.devRef .tc main_v45) := by host_keeps hostOps3
    _ = W6 m ρ c (Proc.devRef .tc main_v45) := W7_of_ne m ρ c main_v45 (by decide)

end Cert.Gcn.Carry

end
-- ==== Proof.Edges.lean ====
/-
  The graph's edges, computed once.

  Before its first region the launch computes, from the edge list alone: the edge sources and edge targets (the two
  rows of the edge list, each followed by the self loops 0 … 19999), the in-degree of every node (a scatter-add of
  ones over the targets), its inverse square root where the degree is positive and 0 elsewhere, and the edge weights
  (the product of that quantity at an edge's source and at its target). The reference computes the same three vectors
  by the same operations of the edge list — the weights anew in each of its four layers, four copies of one term.
-/
import proofs.«135464_j16286515987224_1_alg».proof.Proof.Gen.KernelIdeal.Frame
import proofs.«135464_j16286515987224_1_alg».proof.Proof.RefRead

set_option maxRecDepth 16384

noncomputable section

namespace Cert.Gcn.Edges

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- At the first region's entry the edge sources are the reference's, of the launch's edge list. -/
theorem sources (c : Dev nD) :
    W3 m ρ c (Proc.devRef .tc main_v3) = Cert.ReferenceIdeal.Read.val_main_v3 (F := Ideal) (m ((c : Thread nD τ).loc main_arg2)) := by
  show StableHlo.after hostOps0_2 (StableHlo.after hostOps0_1 (StableHlo.after hostOps0 (W0 m ρ c))) (Proc.devRef .tc main_v3) = _
  after_results_simp <;> rfl

/-- … and the edge targets. -/
theorem targets (c : Dev nD) :
    W3 m ρ c (Proc.devRef .tc main_v6) = Cert.ReferenceIdeal.Read.val_main_v6 (F := Ideal) (m ((c : Thread nD τ).loc main_arg2)) := by
  show StableHlo.after hostOps0_2 (StableHlo.after hostOps0_1 (StableHlo.after hostOps0 (W0 m ρ c))) (Proc.devRef .tc main_v6) = _
  after_results_simp <;> rfl

/-- … and the edge weights. -/
theorem weights (c : Dev nD) :
    W3 m ρ c (Proc.devRef .tc main_v29) = Cert.ReferenceIdeal.Read.val_main_v30 (F := Ideal) (m ((c : Thread nD τ).loc main_arg2)) := by
  show StableHlo.after hostOps0_2 (StableHlo.after hostOps0_1 (StableHlo.after hostOps0 (W0 m ρ c))) (Proc.devRef .tc main_v29) = _
  after_results_simp
  simp only [StableHlo.TRef.toBuf, StableHlo.TRef.ofBuf, cast_eq]
  rfl

/-- … which are also the weights the reference computes anew in its second layer, -/
theorem weights2 (c : Dev nD) :
    W3 m ρ c (Proc.devRef .tc main_v29) = Cert.ReferenceIdeal.Read.val_main_v71 (F := Ideal) (m ((c : Thread nD τ).loc main_arg2)) := by
  show StableHlo.after hostOps0_2 (StableHlo.after hostOps0_1 (StableHlo.after hostOps0 (W0 m ρ c))) (Proc.devRef .tc main_v29) = _
  after_results_simp
  simp only [StableHlo.TRef.toBuf, StableHlo.TRef.ofBuf, cast_eq]
  rfl

/-- … in its third layer, -/
theorem weights3 (c : Dev nD) :
    W3 m ρ c (Proc.devRef .tc main_v29) = Cert.ReferenceIdeal.Read.val_main_v113 (F := Ideal) (m ((c : Thread nD τ).loc main_arg2)) := by
  show StableHlo.after hostOps0_2 (StableHlo.after hostOps0_1 (StableHlo.after hostOps0 (W0 m ρ c))) (Proc.devRef .tc main_v29) = _
  after_results_simp
  simp only [StableHlo.TRef.toBuf, StableHlo.TRef.ofBuf, cast_eq]
  rfl

/-- … and in its fourth. -/
theorem weights4 (c : Dev nD) :
    W3 m ρ c (Proc.devRef .tc main_v29) = Cert.ReferenceIdeal.Read.val_main_v154 (F := Ideal) (m ((c : Thread nD τ).loc main_arg2)) := by
  show StableHlo.after hostOps0_2 (StableHlo.after hostOps0_1 (StableHlo.after hostOps0 (W0 m ρ c))) (Proc.devRef .tc main_v29) = _
  after_results_simp
  simp only [StableHlo.TRef.toBuf, StableHlo.TRef.ofBuf, cast_eq]
  rfl

end Cert.Gcn.Edges

end
-- ==== Proof.BiasRow.lean ====
/-
  Bias and activation, entry by entry.

  A graph-convolution layer ends by adding the bias to every row of the aggregated features and, except in the last
  layer, applying tanh. With the bias held as a 1 × 256 row `b₁`, entry (r, j) of the result is
  act (x (r, j) + b₁ (0, j)). Both programs compute exactly this: the kernel block by block in its epilogue regions, the
  reference by broadcasting the bias to the whole array first.
-/
import proofs.«135464_j16286515987224_1_alg».proof.Proof.Gen.KernelIdeal.Frame
import Idealize.ShloMosaic.PureOps.Ideal

noncomputable section

namespace Cert.Gcn

open Idealize.ShloMosaic Cert.KernelIdeal

/-- The bias row's index under array entry `i`: (0, column of `i`). -/
abbrev biasIdx (i : S20000x256.Idx) : S1x256.Idx := fun a => match a with
  | ⟨0, _⟩ => ⟨0, Nat.one_pos⟩
  | ⟨1, _⟩ => ⟨(i 1).val, (i 1).isLt⟩

/-- Bias then tanh: entry (r, j) is tanh (x (r, j) + b₁ (0, j)), on extended reals. -/
def biasTanh (x : S20000x256.Idx → EReal) (b1 : S1x256.Idx → EReal) : S20000x256.Idx → EReal :=
  fun i => Ideal.tanh (x i + b1 (biasIdx i))

/-- Bias only (the last layer): entry (r, j) is x (r, j) + b₁ (0, j). -/
def biasOnly (x : S20000x256.Idx → EReal) (b1 : S1x256.Idx → EReal) : S20000x256.Idx → EReal :=
  fun i => x i + b1 (biasIdx i)

end Cert.Gcn

end
-- ==== Proof.BiasLink.lean ====
/-
  The bias row, two ways.

  The kernel keeps a layer's bias as a 1 × 256 row (the 256-vector reshaped) and adds row entry (0, j) to every entry
  (r, j); the reference broadcasts the 256-vector to 1 × 256 and then down the 20000 rows before adding. Entry (r, j)
  of either is the vector's entry j, so "bias, then tanh" (and, in the last layer, bias alone) is one function of the
  aggregated features and the bias vector in both programs.
-/
import proofs.«135464_j16286515987224_1_alg».proof.Proof.BiasRow
import proofs.«135464_j16286515987224_1_alg».proof.Proof.RefRead
import Idealize.ShloMosaic.Lib.Pipeline.Value

noncomputable section

namespace Cert.Gcn.BiasLink

open Idealize.ShloMosaic Cert.KernelIdeal Cert.Gcn

/-- The reshaped bias at row-entry (0, column of `i`) is the bias vector at that column. -/
theorem row_entry (b : S256.Idx → EReal) (h : S256.ShapeCasts S1x256) (i : S20000x256.Idx) (k : S256.Idx)
    (hk : (k 0).val = (i 1).val) : shapeCast S1x256 b h (biasIdx i) = b k :=
  (shapeCast_addUnit_apply (n := 1) ![256] b h (biasIdx i)).trans
    (congrArg b (funext fun a => Fin.ext (by match a with | ⟨0, _⟩ => exact hk.symm)))

/-- Layer 1: tanh of the aggregated features plus the bias, by the kernel's row and by the reference's broadcast. -/
theorem tanh_bias_1 (X : S20000x256.Idx → EReal) (b : S256.Idx → EReal) (h : S256.ShapeCasts S1x256) :
    biasTanh X (shapeCast S1x256 b h) = Host.tanh (F := Ideal) (φ := .f32) (addf (F := Ideal) (φ := .f32) X (Cert.ReferenceIdeal.Read.val_main_v45 (F := Ideal) b)) := by
  funext i
  show Ideal.tanh (X i + shapeCast S1x256 b h (biasIdx i)) = Ideal.tanh (X i + Cert.ReferenceIdeal.Read.val_main_v45 (F := Ideal) b i)
  rw [Cert.ReferenceIdeal.Read.val_main_v45_apply, Cert.ReferenceIdeal.Read.val_main_v44_apply]
  rw [row_entry b h i (Cert.ReferenceIdeal.Read.idx_main_v44 (Cert.ReferenceIdeal.Read.idx_main_v45 i)) rfl]

/-- Layer 2: tanh of the aggregated features plus the bias, by the kernel's row and by the reference's broadcast. -/
theorem tanh_bias_2 (X : S20000x256.Idx → EReal) (b : S256.Idx → EReal) (h : S256.ShapeCasts S1x256) :
    biasTanh X (shapeCast S1x256 b h) = Host.tanh (F := Ideal) (φ := .f32) (addf (F := Ideal) (φ := .f32) X (Cert.ReferenceIdeal.Read.val_main_v86 (F := Ideal) b)) := by
  funext i
  show Ideal.tanh (X i + shapeCast S1x256 b h (biasIdx i)) = Ideal.tanh (X i + Cert.ReferenceIdeal.Read.val_main_v86 (F := Ideal) b i)
  rw [Cert.ReferenceIdeal.Read.val_main_v86_apply, Cert.ReferenceIdeal.Read.val_main_v85_apply]
  rw [row_entry b h i (Cert.ReferenceIdeal.Read.idx_main_v85 (Cert.ReferenceIdeal.Read.idx_main_v86 i)) rfl]

/-- Layer 3: tanh of the aggregated features plus the bias, by the kernel's row and by the reference's broadcast. -/
theorem tanh_bias_3 (X : S20000x256.Idx → EReal) (b : S256.Idx → EReal) (h : S256.ShapeCasts S1x256) :
    biasTanh X (shapeCast S1x256 b h) = Host.tanh (F := Ideal) (φ := .f32) (addf (F := Ideal) (φ := .f32) X (Cert.ReferenceIdeal.Read.val_main_v128 (F := Ideal) b)) := by
  funext i
  show Ideal.tanh (X i + shapeCast S1x256 b h (biasIdx i)) = Ideal.tanh (X i + Cert.ReferenceIdeal.Read.val_main_v128 (F := Ideal) b i)
  rw [Cert.ReferenceIdeal.Read.val_main_v128_apply, Cert.ReferenceIdeal.Read.val_main_v127_apply]
  rw [row_entry b h i (Cert.ReferenceIdeal.Read.idx_main_v127 (Cert.ReferenceIdeal.Read.idx_main_v128 i)) rfl]

/-- The last layer: the aggregated features plus the bias, by the kernel's row and by the reference's broadcast. -/
theorem bias_4 (X : S20000x256.Idx → EReal) (b : S256.Idx → EReal) (h : S256.ShapeCasts S1x256) :
    biasOnly X (shapeCast S1x256 b h) = addf (F := Ideal) (φ := .f32) X (Cert.ReferenceIdeal.Read.val_main_v169 (F := Ideal) b) := by
  funext i
  show X i + shapeCast S1x256 b h (biasIdx i) = X i + Cert.ReferenceIdeal.Read.val_main_v169 (F := Ideal) b i
  rw [Cert.ReferenceIdeal.Read.val_main_v169_apply, Cert.ReferenceIdeal.Read.val_main_v168_apply]
  rw [row_entry b h i (Cert.ReferenceIdeal.Read.idx_main_v168 (Cert.ReferenceIdeal.Read.idx_main_v169 i)) rfl]

end Cert.Gcn.BiasLink

end
-- ==== Proof.TransformOut.lean ====
/-
  The fourth dense transform: the hidden layer's output times Wo.

  Region 6 of the launch multiplies the hidden layer's output by a weight matrix, in ten blocks of 2000 rows. At each grid point the
  body loads the point's 2000 rows and the whole weight matrix, casts both to bf16 (on extended reals a change of
  float format is the identity) and stores their product into a zero accumulator. Entry (r, j) of a block is
  therefore the sum over k of (row r of the block, column k) times weight (k, j): it depends on the block's own row
  only, and block t holds rows 2000·t … 2000·t + 1999 of the array. The ten blocks tile the 20000 rows, so after the
  region the output array holds, entry by entry, the sum over k of x (r, k) · w (k, j) of the two arrays the region was
  entered with — the value the host's dot_general of the same two arrays has there.
-/
import proofs.«135464_j16286515987224_1_alg».proof.Proof.Gen.KernelIdeal.Frame
import proofs.«135464_j16286515987224_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.Gcn.TransformOut

open Idealize.ShloMosaic Idealize.ShloMosaic.TcCoe Idealize.SL.Sem
open Idealize.ShloMosaic.Pipeline (Dat Cfg Window)
open Cert.KernelIdeal Cert.KernelIdeal.Gen

-- the region's entry contents: any assignment of contents to the TensorCore's buffers
variable (V : (c : Dev nD) → (b : Ref sig .tc) → Buf (Elt Ideal) ((c : Thread nD τ).loc b))

theorem zero_offsets : (![0, 0] : Fin 2 → Nat) = fun _ => 0 := funext fun a => by fin_cases a <;> rfl

/-! ## One block: the body's product at an index -/

/-- In a block, the left operand's index for output entry `j` and contracted coordinate `k`: (row of `j`, `k`). -/
abbrev lrow (j : S2000x256.Idx) (k : Fin 256) : S2000x256.Idx := fun a => match a with
  | ⟨0, _⟩ => ⟨(j 0).val, (j 0).isLt⟩
  | ⟨1, _⟩ => ⟨k.val, k.isLt⟩
/-- The weight's index for output entry `j` and contracted coordinate `k`: (`k`, column of `j`). -/
abbrev rcol (j : S2000x256.Idx) (k : Fin 256) : S256x256.Idx := fun a => match a with
  | ⟨0, _⟩ => ⟨k.val, k.isLt⟩
  | ⟨1, _⟩ => ⟨(j 1).val, (j 1).isLt⟩

theorem lhs_0 (i : S2000x256.Idx) (q : dot_S2000x256_S256x256_S2000x256_1_0_0_1_n_n.contr.Idx) : (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_1 (i : S2000x256.Idx) (q : dot_S2000x256_S256x256_S2000x256_1_0_0_1_n_n.contr.Idx) : (dot_S2000x256_S256x256_S2000x256_1_0_0_1_n_n.lhsIdx i q 1).val = (q ⟨0, by decide⟩).val :=
  dot_S2000x256_S256x256_S2000x256_1_0_0_1_n_n.lhsIdx_val_of_single rfl i q
theorem rhs_0 (i : S2000x256.Idx) (q : dot_S2000x256_S256x256_S2000x256_1_0_0_1_n_n.contr.Idx) : (dot_S2000x256_S256x256_S2000x256_1_0_0_1_n_n.rhsIdx i q 0).val = (q ⟨0, by decide⟩).val :=
  dot_S2000x256_S256x256_S2000x256_1_0_0_1_n_n.rhsIdx_val_of_single rfl i q
theorem rhs_1 (i : S2000x256.Idx) (q : dot_S2000x256_S256x256_S2000x256_1_0_0_1_n_n.contr.Idx) : (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The body's stored value at entry `j` of a block: the sum over the contracted coordinate of the loaded rows times
    the loaded weights (the bf16 casts are the identity, the accumulator is zero). -/
theorem product_apply (x0 : Vec Ideal S2000x256 .f32) (x1 : Vec Ideal S256x256 .f32) (j : S2000x256.Idx) :
    k6_pay1 (F := Ideal) x0 x1 j = ∑ k : Fin 256, x0 (lrow j k) * x1 (rcol j k) := by
  unfold k6_pay1
  rw [shapeCast_self]
  simp only [matmul]
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx j ((ValueIdx.contrEquiv1 dot_S2000x256_S256x256_S2000x256_1_0_0_1_n_n 256 rfl rfl).symm k) = lrow j k := funext fun a => Fin.ext (by
    match a with
    | ⟨0, _⟩ => exact lhs_0 _ _
    | ⟨1, _⟩ => exact (lhs_1 _ _).trans hk)
  have er : dot_S2000x256_S256x256_S2000x256_1_0_0_1_n_n.rhsIdx j ((ValueIdx.contrEquiv1 dot_S2000x256_S256x256_S2000x256_1_0_0_1_n_n 256 rfl rfl).symm k) = rcol j k := funext fun a => Fin.ext (by
    match a with
    | ⟨0, _⟩ => exact (rhs_0 _ _).trans hk
    | ⟨1, _⟩ => exact rhs_1 _ _)
  rw [el, er]
  rfl

/-! ## The reference's product at an index -/

/-- The host's dot_general of two arrays at entry `i`: the sum over the contracted coordinate `k` of left (row of `i`, `k`)
    times right (`k`, column of `i`). -/
theorem host_product_apply (X : FVec Ideal Cert.ReferenceIdeal.S20000x256 .f32) (Wt : FVec Ideal Cert.ReferenceIdeal.S256x256 .f32) (i : Cert.ReferenceIdeal.S20000x256.Idx) :
    Host.dotGeneral (F := Ideal) (φ₁ := .f32) (φ₂ := .f32) Cert.ReferenceIdeal.dot_S20000x256_S256x256_S20000x256_1_0_0_1_n_n none X Wt i
      = ∑ k : Fin 256, X (Cert.ReferenceIdeal.Read.lidx_main_v131 i k) * Wt (Cert.ReferenceIdeal.Read.ridx_main_v131 i k) := by
  simp only [Host.dotGeneral]
  rw [Ideal.dotGeneral_apply, ← Equiv.sum_comp (ValueIdx.contrEquiv1 Cert.ReferenceIdeal.dot_S20000x256_S256x256_S20000x256_1_0_0_1_n_n 256 rfl rfl).symm]
  refine Finset.sum_congr rfl fun k _ => ?_
  have hk := ValueIdx.contrEquiv1_symm_val Cert.ReferenceIdeal.dot_S20000x256_S256x256_S20000x256_1_0_0_1_n_n 256 rfl rfl k
  have el : Cert.ReferenceIdeal.dot_S20000x256_S256x256_S20000x256_1_0_0_1_n_n.lhsIdx i ((ValueIdx.contrEquiv1 Cert.ReferenceIdeal.dot_S20000x256_S256x256_S20000x256_1_0_0_1_n_n 256 rfl rfl).symm k) = Cert.ReferenceIdeal.Read.lidx_main_v131 i k := funext fun a => Fin.ext (by
    match a with
    | ⟨0, _⟩ => exact Cert.ReferenceIdeal.Read.lhs_main_v131_0 _ _
    | ⟨1, _⟩ => exact (Cert.ReferenceIdeal.Read.lhs_main_v131_1 _ _).trans hk)
  have er : Cert.ReferenceIdeal.dot_S20000x256_S256x256_S20000x256_1_0_0_1_n_n.rhsIdx i ((ValueIdx.contrEquiv1 Cert.ReferenceIdeal.dot_S20000x256_S256x256_S20000x256_1_0_0_1_n_n 256 rfl rfl).symm k) = Cert.ReferenceIdeal.Read.ridx_main_v131 i k := funext fun a => Fin.ext (by
    match a with
    | ⟨0, _⟩ => exact (Cert.ReferenceIdeal.Read.rhs_main_v131_0 _ _).trans hk
    | ⟨1, _⟩ => exact Cert.ReferenceIdeal.Read.rhs_main_v131_1 _ _)
  rw [el, er]

/-! ## From the blocks to the array -/

/-- The printed index maps over the ten grid points: the rows window moves with the output window, its column block
    and both of the weight's block indices are 0, and the output's row block index is below 10. -/
theorem index_facts : ∀ t : Fin cfg6.N, win6_0.index t (0 : Fin 2) = win6_2.index t (0 : Fin 2)
    ∧ win6_0.index t (1 : Fin 2) = 0
    ∧ win6_1.index t (0 : Fin 2) = 0
    ∧ win6_1.index t (1 : Fin 2) = 0
    ∧ win6_2.index t (1 : Fin 2) = 0
    ∧ win6_2.index t (0 : Fin 2) ≤ 9 :=
  (by decide +kernel : ∀ t : Fin grid6.N, _)

/-- Every row block is some grid point's. -/
theorem index_onto : ∀ q : Fin 10, ∃ t : Fin cfg6.N, win6_2.index t = ![q.val, 0] :=
  (by decide +kernel : ∀ q : Fin 10, ∃ t : Fin grid6.N, win6_2.index t = ![q.val, 0])

/-- What grid point `t` writes back is block `t` of the product of the two arrays the region was entered with. -/
theorem flushed_eq (c : Dev nD) (t : Fin cfg6.N) :
    (dat6 V c).flushed 2 t = ((cfg6.win 2).blk t).view.read (Elt Ideal)
      (Host.dotGeneral (F := Ideal) (φ₁ := .f32) (φ₂ := .f32) Cert.ReferenceIdeal.dot_S20000x256_S256x256_S20000x256_1_0_0_1_n_n none (V c main_v78) (V c main_arg9)) := by
  show (cfg6.win 2).cut (grid6.coords t) ((dat6 V c).after 2 t) = _
  rw [after6_2]
  unfold out6_2
  rw [View.canon_unit_zero zero_offsets]
  simp only [View.ld_unit_zero (S := S2000x256) zero_offsets, View.ld_unit_zero (S := S256x256) zero_offsets]
  obtain ⟨e0, e1, e2, e3, e4, e5⟩ := index_facts t
  funext j
  show k6_pay1 (F := Ideal) (iblk6 V c 0 t) (iblk6 V c 1 t) j
    = Host.dotGeneral (F := Ideal) (φ₁ := .f32) (φ₂ := .f32) Cert.ReferenceIdeal.dot_S20000x256_S256x256_S20000x256_1_0_0_1_n_n none (V c main_v78) (V c main_arg9) (((cfg6.win 2).blk t).view.emb j)
  refine (product_apply (iblk6 V c 0 t) (iblk6 V c 1 t) j).trans ?_
  refine Eq.trans ?_ (host_product_apply (V c main_v78) (V c main_arg9) (((cfg6.win 2).blk t).view.emb j)).symm
  refine Finset.sum_congr rfl fun k _ => ?_
  have h0 : ((cfg6.win 0).blk t).view.emb (lrow j k) = Cert.ReferenceIdeal.Read.lidx_main_v131 (((cfg6.win 2).blk t).view.emb j) k := by
    funext a; apply Fin.ext
    match a with
    | ⟨0, _⟩ => show win6_0.index t (0 : Fin 2) * 2000 + 1 * (j 0).val = win6_2.index t (0 : Fin 2) * 2000 + 1 * (j 0).val; omega
    | ⟨1, _⟩ => show win6_0.index t (1 : Fin 2) * 256 + 1 * k.val = k.val; omega
  have h1 : ((cfg6.win 1).blk t).view.emb (rcol j k) = Cert.ReferenceIdeal.Read.ridx_main_v131 (((cfg6.win 2).blk t).view.emb j) k := by
    funext a; apply Fin.ext
    match a with
    | ⟨0, _⟩ => show win6_1.index t (0 : Fin 2) * 256 + 1 * k.val = k.val; omega
    | ⟨1, _⟩ => show win6_1.index t (1 : Fin 2) * 256 + 1 * (j 1).val = win6_2.index t (1 : Fin 2) * 256 + 1 * (j 1).val; omega
  have hx : iblk6 V c 0 t (lrow j k) = V c main_v78 (Cert.ReferenceIdeal.Read.lidx_main_v131 (((cfg6.win 2).blk t).view.emb j) k) := congrArg (V c main_v78) h0
  have hw : iblk6 V c 1 t (rcol j k) = V c main_arg9 (Cert.ReferenceIdeal.Read.ridx_main_v131 (((cfg6.win 2).blk t).view.emb j) k) := congrArg (V c main_arg9) h1
  rw [hx, hw]

/-- An index of the output array is in point `t`'s block iff each coordinate is in the block's range on its axis. -/
theorem mem_block (t : Fin cfg6.N) (i : S20000x256.Idx) :
    i ∈ ((cfg6.win 2).blk t).view.set ↔ ∀ a : Fin 2, win6_2.index t a * S2000x256.size a ≤ (i a).val ∧ (i a).val < win6_2.index t a * S2000x256.size a + S2000x256.size a := by
  show i ∈ ((View.whole main_v79).slice (win6_2.rect t)).set ↔ _
  rw [View.set_slice_whole, Rect.mem_set_unit]
  exact Iff.rfl

/-- The ten row blocks cover the array: entry (r, j) lies in the block of point r / 2000. -/
theorem blocks_cover (i : S20000x256.Idx) :
    ∃ t : Fin cfg6.N, (cfg6.win 2).flush t = true ∧ i ∈ ((cfg6.win 2).blk t).view.set := by
  have hi0 : (i 0).val < 20000 := (i 0).isLt
  have hi1 : (i 1).val < 256 := (i 1).isLt
  obtain ⟨t, ht⟩ := index_onto ⟨(i 0).val / 2000, by omega⟩
  have q0 : win6_2.index t (0 : Fin 2) = (i 0).val / 2000 := congrFun ht 0
  have q1 : win6_2.index t (1 : Fin 2) = 0 := congrFun ht 1
  refine ⟨t, flush6_2 t, ?_⟩
  rw [mem_block]
  intro a
  match a with
  | ⟨0, _⟩ => show win6_2.index t (0 : Fin 2) * 2000 ≤ (i 0).val ∧ (i 0).val < win6_2.index t (0 : Fin 2) * 2000 + 2000; omega
  | ⟨1, _⟩ => show win6_2.index t (1 : Fin 2) * 256 ≤ (i 1).val ∧ (i 1).val < win6_2.index t (1 : Fin 2) * 256 + 256; omega

/-- THE ARRAY after the region: the matrix product of the two arrays it was entered with. -/
theorem array_eq (c : Dev nD) :
    (dat6 V c).arrAt 2 cfg6.N = Host.dotGeneral (F := Ideal) (φ₁ := .f32) (φ₂ := .f32) Cert.ReferenceIdeal.dot_S20000x256_S256x256_S20000x256_1_0_0_1_n_n none (V c main_v78) (V c main_arg9) :=
  (dat6 V c).arrAt_eq_of_cover 2 _ (fun t _ => flushed_eq V c t) blocks_cover

end Cert.Gcn.TransformOut

end
-- ==== Proof.BiasOut.lean ====
/-
  The last layer's epilogue: bias bo on the aggregated output transform (no activation).

  Region 7 of the launch adds the bias row to the aggregated features, in ten blocks of 2000 rows. At each
  grid point the body loads the point's 2000 rows and the whole 1 × 256 bias row, broadcasts the row down the block,
  adds and stores the block. Entry (r, j) of a block depends on the block's own entry (r, j) and on
  bias entry (0, j) only, and block t holds rows 2000·t … 2000·t + 1999 of the array; the ten blocks tile the 20000
  rows. So after the region the output array holds, entry by entry, x (r, j) + b₁ (0, j) of the two arrays the region
  was entered with.
-/
import proofs.«135464_j16286515987224_1_alg».proof.Proof.Gen.KernelIdeal.Frame
import proofs.«135464_j16286515987224_1_alg».proof.Proof.BiasRow
import Idealize.ShloMosaic.Lib.Pipeline.Value
import Idealize.ShloMosaic.Lib.ValueIdx

set_option maxRecDepth 16384

noncomputable section

namespace Cert.Gcn.BiasOut

open Idealize.ShloMosaic Idealize.ShloMosaic.TcCoe Idealize.SL.Sem
open Idealize.ShloMosaic.Pipeline (Dat Cfg Window)
open Cert.KernelIdeal Cert.KernelIdeal.Gen

-- the region's entry contents: any assignment of contents to the TensorCore's buffers
variable (V : (c : Dev nD) → (b : Ref sig .tc) → Buf (Elt Ideal) ((c : Thread nD τ).loc b))

theorem zero_offsets : (![0, 0] : Fin 2 → Nat) = fun _ => 0 := funext fun a => by fin_cases a <;> rfl

/-! ## One block: the body's value at an index -/

/-- In a block, the bias row's index under entry `j`: (0, column of `j`). -/
abbrev biasIdxB (j : S2000x256.Idx) : S1x256.Idx := fun a => match a with
  | ⟨0, _⟩ => ⟨0, Nat.one_pos⟩
  | ⟨1, _⟩ => ⟨(j 1).val, (j 1).isLt⟩

/-- The body's stored value at entry `j` of a block (the two shape casts are between equal shapes). -/
theorem body_apply (x0 : Vec Ideal S2000x256 .f32) (x1 : Vec Ideal S1x256 .f32) (j : S2000x256.Idx) :
    k7_pay1 (F := Ideal) x0 x1 j = x0 j + x1 (biasIdxB j) := by
  unfold k7_pay1
  rw [shapeCast_self, shapeCast_self]
  have hb : broadcastTo S2000x256 x1 broadcasts_S1x256_S2000x256 j = x1 (biasIdxB j) :=
    broadcastTo_apply x1 broadcasts_S1x256_S2000x256 j (biasIdxB j) (fun a => match a with
      | ⟨0, _⟩ => by show 0 = if (1 : Nat) = 1 then 0 else (j 0).val; rw [if_pos rfl]
      | ⟨1, _⟩ => by show (j 1).val = if (256 : Nat) = 1 then 0 else (j 1).val; rw [if_neg (by decide)])
  show x0 j + broadcastTo S2000x256 x1 broadcasts_S1x256_S2000x256 j = _
  rw [hb]

/-! ## From the blocks to the array -/

/-- The printed index maps over the ten grid points: the rows window moves with the output window, its column block
    and both of the bias row's block indices are 0, and the output's row block index is below 10. -/
theorem index_facts : ∀ t : Fin cfg7.N, win7_0.index t (0 : Fin 2) = win7_2.index t (0 : Fin 2)
    ∧ win7_0.index t (1 : Fin 2) = 0
    ∧ win7_1.index t (0 : Fin 2) = 0
    ∧ win7_1.index t (1 : Fin 2) = 0
    ∧ win7_2.index t (1 : Fin 2) = 0
    ∧ win7_2.index t (0 : Fin 2) ≤ 9 :=
  (by decide +kernel : ∀ t : Fin grid7.N, _)

/-- Every row block is some grid point's. -/
theorem index_onto : ∀ q : Fin 10, ∃ t : Fin cfg7.N, win7_2.index t = ![q.val, 0] :=
  (by decide +kernel : ∀ q : Fin 10, ∃ t : Fin grid7.N, win7_2.index t = ![q.val, 0])

/-- What grid point `t` writes back is block `t` of the entrywise function of the two arrays the region was entered with. -/
theorem flushed_eq (c : Dev nD) (t : Fin cfg7.N) :
    (dat7 V c).flushed 2 t = ((cfg7.win 2).blk t).view.read (Elt Ideal) (biasOnly (V c main_v92) (V c main_v93)) := by
  show (cfg7.win 2).cut (grid7.coords t) ((dat7 V c).after 2 t) = _
  rw [after7_2]
  unfold out7_2
  rw [View.canon_unit_zero zero_offsets]
  simp only [View.ld_unit_zero (S := S2000x256) zero_offsets, View.ld_unit_zero (S := S1x256) zero_offsets]
  obtain ⟨e0, e1, e2, e3, e4, e5⟩ := index_facts t
  funext j
  show k7_pay1 (F := Ideal) (iblk7 V c 0 t) (iblk7 V c 1 t) j
    = biasOnly (V c main_v92) (V c main_v93) (((cfg7.win 2).blk t).view.emb j)
  refine (body_apply (iblk7 V c 0 t) (iblk7 V c 1 t) j).trans ?_
  have h0 : ((cfg7.win 0).blk t).view.emb j = ((cfg7.win 2).blk t).view.emb j := by
    funext a; apply Fin.ext
    match a with
    | ⟨0, _⟩ => show win7_0.index t (0 : Fin 2) * 2000 + 1 * (j 0).val = win7_2.index t (0 : Fin 2) * 2000 + 1 * (j 0).val; omega
    | ⟨1, _⟩ => show win7_0.index t (1 : Fin 2) * 256 + 1 * (j 1).val = win7_2.index t (1 : Fin 2) * 256 + 1 * (j 1).val; omega
  have h1 : ((cfg7.win 1).blk t).view.emb (biasIdxB j) = biasIdx (((cfg7.win 2).blk t).view.emb j) := by
    funext a; apply Fin.ext
    match a with
    | ⟨0, _⟩ => show win7_1.index t (0 : Fin 2) * 1 + 1 * 0 = 0; omega
    | ⟨1, _⟩ => show win7_1.index t (1 : Fin 2) * 256 + 1 * (j 1).val = win7_2.index t (1 : Fin 2) * 256 + 1 * (j 1).val; omega
  have hx : iblk7 V c 0 t j = V c main_v92 (((cfg7.win 2).blk t).view.emb j) := congrArg (V c main_v92) h0
  have hb : iblk7 V c 1 t (biasIdxB j) = V c main_v93 (biasIdx (((cfg7.win 2).blk t).view.emb j)) := congrArg (V c main_v93) h1
  rw [hx, hb]
  rfl

/-- An index of the output array is in point `t`'s block iff each coordinate is in the block's range on its axis. -/
theorem mem_block (t : Fin cfg7.N) (i : S20000x256.Idx) :
    i ∈ ((cfg7.win 2).blk t).view.set ↔ ∀ a : Fin 2, win7_2.index t a * S2000x256.size a ≤ (i a).val ∧ (i a).val < win7_2.index t a * S2000x256.size a + S2000x256.size a := by
  show i ∈ ((View.whole main_v94).slice (win7_2.rect t)).set ↔ _
  rw [View.set_slice_whole, Rect.mem_set_unit]
  exact Iff.rfl

/-- The ten row blocks cover the array: entry (r, j) lies in the block of point r / 2000. -/
theorem blocks_cover (i : S20000x256.Idx) :
    ∃ t : Fin cfg7.N, (cfg7.win 2).flush t = true ∧ i ∈ ((cfg7.win 2).blk t).view.set := by
  have hi0 : (i 0).val < 20000 := (i 0).isLt
  have hi1 : (i 1).val < 256 := (i 1).isLt
  obtain ⟨t, ht⟩ := index_onto ⟨(i 0).val / 2000, by omega⟩
  have q0 : win7_2.index t (0 : Fin 2) = (i 0).val / 2000 := congrFun ht 0
  have q1 : win7_2.index t (1 : Fin 2) = 0 := congrFun ht 1
  refine ⟨t, flush7_2 t, ?_⟩
  rw [mem_block]
  intro a
  match a with
  | ⟨0, _⟩ => show win7_2.index t (0 : Fin 2) * 2000 ≤ (i 0).val ∧ (i 0).val < win7_2.index t (0 : Fin 2) * 2000 + 2000; omega
  | ⟨1, _⟩ => show win7_2.index t (1 : Fin 2) * 256 ≤ (i 1).val ∧ (i 1).val < win7_2.index t (1 : Fin 2) * 256 + 256; omega

/-- THE ARRAY after the region: the entrywise function of the two arrays it was entered with. -/
theorem array_eq (c : Dev nD) :
    (dat7 V c).arrAt 2 cfg7.N = biasOnly (V c main_v92) (V c main_v93) :=
  (dat7 V c).arrAt_eq_of_cover 2 _ (fun t _ => flushed_eq V c t) blocks_cover

end Cert.Gcn.BiasOut

end
-- ==== Proof.TransformHidden.lean ====
/-
  The third dense transform: the two activated halves side by side (512 columns) times Wh.

  Region 4 of the launch multiplies the concatenated hidden features by a weight matrix, in ten blocks of 2000 rows. At each grid point the
  body loads the point's 2000 rows and the whole weight matrix, casts both to bf16 (on extended reals a change of
  float format is the identity) and stores their product into a zero accumulator. Entry (r, j) of a block is
  therefore the sum over k of (row r of the block, column k) times weight (k, j): it depends on the block's own row
  only, and block t holds rows 2000·t … 2000·t + 1999 of the array. The ten blocks tile the 20000 rows, so after the
  region the output array holds, entry by entry, the sum over k of x (r, k) · w (k, j) of the two arrays the region was
  entered with — the value the host's dot_general of the same two arrays has there.
-/
import proofs.«135464_j16286515987224_1_alg».proof.Proof.Gen.KernelIdeal.Frame
import proofs.«135464_j16286515987224_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.Gcn.TransformHidden

open Idealize.ShloMosaic Idealize.ShloMosaic.TcCoe Idealize.SL.Sem
open Idealize.ShloMosaic.Pipeline (Dat Cfg Window)
open Cert.KernelIdeal Cert.KernelIdeal.Gen

-- the region's entry contents: any assignment of contents to the TensorCore's buffers
variable (V : (c : Dev nD) → (b : Ref sig .tc) → Buf (Elt Ideal) ((c : Thread nD τ).loc b))

theorem zero_offsets : (![0, 0] : Fin 2 → Nat) = fun _ => 0 := funext fun a => by fin_cases a <;> rfl

/-! ## One block: the body's product at an index -/

/-- In a block, the left operand's index for output entry `j` and contracted coordinate `k`: (row of `j`, `k`). -/
abbrev lrow (j : S2000x256.Idx) (k : Fin 512) : S2000x512.Idx := fun a => match a with
  | ⟨0, _⟩ => ⟨(j 0).val, (j 0).isLt⟩
  | ⟨1, _⟩ => ⟨k.val, k.isLt⟩
/-- The weight's index for output entry `j` and contracted coordinate `k`: (`k`, column of `j`). -/
abbrev rcol (j : S2000x256.Idx) (k : Fin 512) : S512x256.Idx := fun a => match a with
  | ⟨0, _⟩ => ⟨k.val, k.isLt⟩
  | ⟨1, _⟩ => ⟨(j 1).val, (j 1).isLt⟩

theorem lhs_0 (i : S2000x256.Idx) (q : dot_S2000x512_S512x256_S2000x256_1_0_0_1_n_n.contr.Idx) : (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
theorem lhs_1 (i : S2000x256.Idx) (q : dot_S2000x512_S512x256_S2000x256_1_0_0_1_n_n.contr.Idx) : (dot_S2000x512_S512x256_S2000x256_1_0_0_1_n_n.lhsIdx i q 1).val = (q ⟨0, by decide⟩).val :=
  dot_S2000x512_S512x256_S2000x256_1_0_0_1_n_n.lhsIdx_val_of_single rfl i q
theorem rhs_0 (i : S2000x256.Idx) (q : dot_S2000x512_S512x256_S2000x256_1_0_0_1_n_n.contr.Idx) : (dot_S2000x512_S512x256_S2000x256_1_0_0_1_n_n.rhsIdx i q 0).val = (q ⟨0, by decide⟩).val :=
  dot_S2000x512_S512x256_S2000x256_1_0_0_1_n_n.rhsIdx_val_of_single rfl i q
theorem rhs_1 (i : S2000x256.Idx) (q : dot_S2000x512_S512x256_S2000x256_1_0_0_1_n_n.contr.Idx) : (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-- The body's stored value at entry `j` of a block: the sum over the contracted coordinate of the loaded rows times
    the loaded weights (the bf16 casts are the identity, the accumulator is zero). -/
theorem product_apply (x0 : Vec Ideal S2000x512 .f32) (x1 : Vec Ideal S512x256 .f32) (j : S2000x256.Idx) :
    k4_pay1 (F := Ideal) x0 x1 j = ∑ k : Fin 512, x0 (lrow j k) * x1 (rcol j k) := by
  unfold k4_pay1
  rw [shapeCast_self]
  simp only [matmul]
  rw [Ideal.matmul_constant_zero_apply, ← Equiv.sum_comp (ValueIdx.contrEquiv1 dot_S2000x512_S512x256_S2000x256_1_0_0_1_n_n 512 rfl rfl).symm]
  refine Finset.sum_congr rfl fun k _ => ?_
  have hk := ValueIdx.contrEquiv1_symm_val dot_S2000x512_S512x256_S2000x256_1_0_0_1_n_n 512 rfl rfl k
  have el : dot_S2000x512_S512x256_S2000x256_1_0_0_1_n_n.lhsIdx j ((ValueIdx.contrEquiv1 dot_S2000x512_S512x256_S2000x256_1_0_0_1_n_n 512 rfl rfl).symm k) = lrow j k := funext fun a => Fin.ext (by
    match a with
    | ⟨0, _⟩ => exact lhs_0 _ _
    | ⟨1, _⟩ => exact (lhs_1 _ _).trans hk)
  have er : dot_S2000x512_S512x256_S2000x256_1_0_0_1_n_n.rhsIdx j ((ValueIdx.contrEquiv1 dot_S2000x512_S512x256_S2000x256_1_0_0_1_n_n 512 rfl rfl).symm k) = rcol j k := funext fun a => Fin.ext (by
    match a with
    | ⟨0, _⟩ => exact (rhs_0 _ _).trans hk
    | ⟨1, _⟩ => exact rhs_1 _ _)
  rw [el, er]
  rfl

/-! ## The reference's product at an index -/

/-- The host's dot_general of two arrays at entry `i`: the sum over the contracted coordinate `k` of left (row of `i`, `k`)
    times right (`k`, column of `i`). -/
theorem host_product_apply (X : FVec Ideal Cert.ReferenceIdeal.S20000x512 .f32) (Wt : FVec Ideal Cert.ReferenceIdeal.S512x256 .f32) (i : Cert.ReferenceIdeal.S20000x256.Idx) :
    Host.dotGeneral (F := Ideal) (φ₁ := .f32) (φ₂ := .f32) Cert.ReferenceIdeal.dot_S20000x512_S512x256_S20000x256_1_0_0_1_n_n none X Wt i
      = ∑ k : Fin 512, X (Cert.ReferenceIdeal.Read.lidx_main_v90 i k) * Wt (Cert.ReferenceIdeal.Read.ridx_main_v90 i k) := by
  simp only [Host.dotGeneral]
  rw [Ideal.dotGeneral_apply, ← Equiv.sum_comp (ValueIdx.contrEquiv1 Cert.ReferenceIdeal.dot_S20000x512_S512x256_S20000x256_1_0_0_1_n_n 512 rfl rfl).symm]
  refine Finset.sum_congr rfl fun k _ => ?_
  have hk := ValueIdx.contrEquiv1_symm_val Cert.ReferenceIdeal.dot_S20000x512_S512x256_S20000x256_1_0_0_1_n_n 512 rfl rfl k
  have el : Cert.ReferenceIdeal.dot_S20000x512_S512x256_S20000x256_1_0_0_1_n_n.lhsIdx i ((ValueIdx.contrEquiv1 Cert.ReferenceIdeal.dot_S20000x512_S512x256_S20000x256_1_0_0_1_n_n 512 rfl rfl).symm k) = Cert.ReferenceIdeal.Read.lidx_main_v90 i k := funext fun a => Fin.ext (by
    match a with
    | ⟨0, _⟩ => exact Cert.ReferenceIdeal.Read.lhs_main_v90_0 _ _
    | ⟨1, _⟩ => exact (Cert.ReferenceIdeal.Read.lhs_main_v90_1 _ _).trans hk)
  have er : Cert.ReferenceIdeal.dot_S20000x512_S512x256_S20000x256_1_0_0_1_n_n.rhsIdx i ((ValueIdx.contrEquiv1 Cert.ReferenceIdeal.dot_S20000x512_S512x256_S20000x256_1_0_0_1_n_n 512 rfl rfl).symm k) = Cert.ReferenceIdeal.Read.ridx_main_v90 i k := funext fun a => Fin.ext (by
    match a with
    | ⟨0, _⟩ => exact (Cert.ReferenceIdeal.Read.rhs_main_v90_0 _ _).trans hk
    | ⟨1, _⟩ => exact Cert.ReferenceIdeal.Read.rhs_main_v90_1 _ _)
  rw [el, er]

/-! ## From the blocks to the array -/

/-- The printed index maps over the ten grid points: the rows window moves with the output window, its column block
    and both of the weight's block indices are 0, and the output's row block index is below 10. -/
theorem index_facts : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) ≤ 9 :=
  (by decide +kernel : ∀ t : Fin grid4.N, _)

/-- Every row block is some grid point's. -/
theorem index_onto : ∀ q : Fin 10, ∃ t : Fin cfg4.N, win4_2.index t = ![q.val, 0] :=
  (by decide +kernel : ∀ q : Fin 10, ∃ t : Fin grid4.N, win4_2.index t = ![q.val, 0])

/-- What grid point `t` writes back is block `t` of the product of the two arrays the region was entered with. -/
theorem flushed_eq (c : Dev nD) (t : Fin cfg4.N) :
    (dat4 V c).flushed 2 t = ((cfg4.win 2).blk t).view.read (Elt Ideal)
      (Host.dotGeneral (F := Ideal) (φ₁ := .f32) (φ₂ := .f32) Cert.ReferenceIdeal.dot_S20000x512_S512x256_S20000x256_1_0_0_1_n_n none (V c main_v62) (V c main_arg7)) := by
  show (cfg4.win 2).cut (grid4.coords t) ((dat4 V c).after 2 t) = _
  rw [after4_2]
  unfold out4_2
  rw [View.canon_unit_zero zero_offsets]
  simp only [View.ld_unit_zero (S := S2000x512) zero_offsets, View.ld_unit_zero (S := S512x256) zero_offsets]
  obtain ⟨e0, e1, e2, e3, e4, e5⟩ := index_facts t
  funext j
  show k4_pay1 (F := Ideal) (iblk4 V c 0 t) (iblk4 V c 1 t) j
    = Host.dotGeneral (F := Ideal) (φ₁ := .f32) (φ₂ := .f32) Cert.ReferenceIdeal.dot_S20000x512_S512x256_S20000x256_1_0_0_1_n_n none (V c main_v62) (V c main_arg7) (((cfg4.win 2).blk t).view.emb j)
  refine (product_apply (iblk4 V c 0 t) (iblk4 V c 1 t) j).trans ?_
  refine Eq.trans ?_ (host_product_apply (V c main_v62) (V c main_arg7) (((cfg4.win 2).blk t).view.emb j)).symm
  refine Finset.sum_congr rfl fun k _ => ?_
  have h0 : ((cfg4.win 0).blk t).view.emb (lrow j k) = Cert.ReferenceIdeal.Read.lidx_main_v90 (((cfg4.win 2).blk t).view.emb j) k := by
    funext a; apply Fin.ext
    match a with
    | ⟨0, _⟩ => show win4_0.index t (0 : Fin 2) * 2000 + 1 * (j 0).val = win4_2.index t (0 : Fin 2) * 2000 + 1 * (j 0).val; omega
    | ⟨1, _⟩ => show win4_0.index t (1 : Fin 2) * 512 + 1 * k.val = k.val; omega
  have h1 : ((cfg4.win 1).blk t).view.emb (rcol j k) = Cert.ReferenceIdeal.Read.ridx_main_v90 (((cfg4.win 2).blk t).view.emb j) k := by
    funext a; apply Fin.ext
    match a with
    | ⟨0, _⟩ => show win4_1.index t (0 : Fin 2) * 512 + 1 * k.val = k.val; omega
    | ⟨1, _⟩ => show win4_1.index t (1 : Fin 2) * 256 + 1 * (j 1).val = win4_2.index t (1 : Fin 2) * 256 + 1 * (j 1).val; omega
  have hx : iblk4 V c 0 t (lrow j k) = V c main_v62 (Cert.ReferenceIdeal.Read.lidx_main_v90 (((cfg4.win 2).blk t).view.emb j) k) := congrArg (V c main_v62) h0
  have hw : iblk4 V c 1 t (rcol j k) = V c main_arg7 (Cert.ReferenceIdeal.Read.ridx_main_v90 (((cfg4.win 2).blk t).view.emb j) k) := congrArg (V c main_arg7) h1
  rw [hx, hw]

/-- An index of the output array is in point `t`'s block iff each coordinate is in the block's range on its axis. -/
theorem mem_block (t : Fin cfg4.N) (i : S20000x256.Idx) :
    i ∈ ((cfg4.win 2).blk t).view.set ↔ ∀ a : Fin 2, win4_2.index t a * S2000x256.size a ≤ (i a).val ∧ (i a).val < win4_2.index t a * S2000x256.size a + S2000x256.size a := by
  show i ∈ ((View.whole main_v63).slice (win4_2.rect t)).set ↔ _
  rw [View.set_slice_whole, Rect.mem_set_unit]
  exact Iff.rfl

/-- The ten row blocks cover the array: entry (r, j) lies in the block of point r / 2000. -/
theorem blocks_cover (i : S20000x256.Idx) :
    ∃ t : Fin cfg4.N, (cfg4.win 2).flush t = true ∧ i ∈ ((cfg4.win 2).blk t).view.set := by
  have hi0 : (i 0).val < 20000 := (i 0).isLt
  have hi1 : (i 1).val < 256 := (i 1).isLt
  obtain ⟨t, ht⟩ := index_onto ⟨(i 0).val / 2000, by omega⟩
  have q0 : win4_2.index t (0 : Fin 2) = (i 0).val / 2000 := congrFun ht 0
  have q1 : win4_2.index t (1 : Fin 2) = 0 := congrFun ht 1
  refine ⟨t, flush4_2 t, ?_⟩
  rw [mem_block]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 256 ≤ (i 1).val ∧ (i 1).val < win4_2.index t (1 : Fin 2) * 256 + 256; omega

/-- THE ARRAY after the region: the matrix product of the two arrays it was entered with. -/
theorem array_eq (c : Dev nD) :
    (dat4 V c).arrAt 2 cfg4.N = Host.dotGeneral (F := Ideal) (φ₁ := .f32) (φ₂ := .f32) Cert.ReferenceIdeal.dot_S20000x512_S512x256_S20000x256_1_0_0_1_n_n none (V c main_v62) (V c main_arg7) :=
  (dat4 V c).arrAt_eq_of_cover 2 _ (fun t _ => flushed_eq V c t) blocks_cover

end Cert.Gcn.TransformHidden

end
-- ==== Proof.ActivateHidden.lean ====
/-
  The third layer's epilogue: bias bh and tanh on the aggregated hidden transform.

  Region 5 of the launch adds the bias row to the aggregated features and applies tanh, in ten blocks of 2000 rows. At each
  grid point the body loads the point's 2000 rows and the whole 1 × 256 bias row, broadcasts the row down the block,
  adds, applies tanh and stores the block. Entry (r, j) of a block depends on the block's own entry (r, j) and on
  bias entry (0, j) only, and block t holds rows 2000·t … 2000·t + 1999 of the array; the ten blocks tile the 20000
  rows. So after the region the output array holds, entry by entry, tanh (x (r, j) + b₁ (0, j)) of the two arrays the region
  was entered with.
-/
import proofs.«135464_j16286515987224_1_alg».proof.Proof.Gen.KernelIdeal.Frame
import proofs.«135464_j16286515987224_1_alg».proof.Proof.BiasRow
import Idealize.ShloMosaic.Lib.Pipeline.Value
import Idealize.ShloMosaic.Lib.ValueIdx

set_option maxRecDepth 16384

noncomputable section

namespace Cert.Gcn.ActivateHidden

open Idealize.ShloMosaic Idealize.ShloMosaic.TcCoe Idealize.SL.Sem
open Idealize.ShloMosaic.Pipeline (Dat Cfg Window)
open Cert.KernelIdeal Cert.KernelIdeal.Gen

-- the region's entry contents: any assignment of contents to the TensorCore's buffers
variable (V : (c : Dev nD) → (b : Ref sig .tc) → Buf (Elt Ideal) ((c : Thread nD τ).loc b))

theorem zero_offsets : (![0, 0] : Fin 2 → Nat) = fun _ => 0 := funext fun a => by fin_cases a <;> rfl

/-! ## One block: the body's value at an index -/

/-- In a block, the bias row's index under entry `j`: (0, column of `j`). -/
abbrev biasIdxB (j : S2000x256.Idx) : S1x256.Idx := fun a => match a with
  | ⟨0, _⟩ => ⟨0, Nat.one_pos⟩
  | ⟨1, _⟩ => ⟨(j 1).val, (j 1).isLt⟩

/-- The body's stored value at entry `j` of a block (the two shape casts are between equal shapes). -/
theorem body_apply (x0 : Vec Ideal S2000x256 .f32) (x1 : Vec Ideal S1x256 .f32) (j : S2000x256.Idx) :
    k5_pay1 (F := Ideal) x0 x1 j = Ideal.tanh (x0 j + x1 (biasIdxB j)) := by
  unfold k5_pay1
  rw [shapeCast_self, shapeCast_self]
  have hb : broadcastTo S2000x256 x1 broadcasts_S1x256_S2000x256 j = x1 (biasIdxB j) :=
    broadcastTo_apply x1 broadcasts_S1x256_S2000x256 j (biasIdxB j) (fun a => match a with
      | ⟨0, _⟩ => by show 0 = if (1 : Nat) = 1 then 0 else (j 0).val; rw [if_pos rfl]
      | ⟨1, _⟩ => by show (j 1).val = if (256 : Nat) = 1 then 0 else (j 1).val; rw [if_neg (by decide)])
  show Ideal.tanh (x0 j + broadcastTo S2000x256 x1 broadcasts_S1x256_S2000x256 j) = _
  rw [hb]

/-! ## From the blocks to the array -/

/-- The printed index maps over the ten grid points: the rows window moves with the output window, its column block
    and both of the bias row's block indices are 0, and the output's row block index is below 10. -/
theorem index_facts : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (1 : Fin 2) = 0
    ∧ win5_2.index t (0 : Fin 2) ≤ 9 :=
  (by decide +kernel : ∀ t : Fin grid5.N, _)

/-- Every row block is some grid point's. -/
theorem index_onto : ∀ q : Fin 10, ∃ t : Fin cfg5.N, win5_2.index t = ![q.val, 0] :=
  (by decide +kernel : ∀ q : Fin 10, ∃ t : Fin grid5.N, win5_2.index t = ![q.val, 0])

/-- What grid point `t` writes back is block `t` of the entrywise function of the two arrays the region was entered with. -/
theorem flushed_eq (c : Dev nD) (t : Fin cfg5.N) :
    (dat5 V c).flushed 2 t = ((cfg5.win 2).blk t).view.read (Elt Ideal) (biasTanh (V c main_v76) (V c main_v77)) := by
  show (cfg5.win 2).cut (grid5.coords t) ((dat5 V c).after 2 t) = _
  rw [after5_2]
  unfold out5_2
  rw [View.canon_unit_zero zero_offsets]
  simp only [View.ld_unit_zero (S := S2000x256) zero_offsets, View.ld_unit_zero (S := S1x256) zero_offsets]
  obtain ⟨e0, e1, e2, e3, e4, e5⟩ := index_facts t
  funext j
  show k5_pay1 (F := Ideal) (iblk5 V c 0 t) (iblk5 V c 1 t) j
    = biasTanh (V c main_v76) (V c main_v77) (((cfg5.win 2).blk t).view.emb j)
  refine (body_apply (iblk5 V c 0 t) (iblk5 V c 1 t) j).trans ?_
  have h0 : ((cfg5.win 0).blk t).view.emb j = ((cfg5.win 2).blk t).view.emb j := by
    funext a; apply Fin.ext
    match a with
    | ⟨0, _⟩ => show win5_0.index t (0 : Fin 2) * 2000 + 1 * (j 0).val = win5_2.index t (0 : Fin 2) * 2000 + 1 * (j 0).val; omega
    | ⟨1, _⟩ => show win5_0.index t (1 : Fin 2) * 256 + 1 * (j 1).val = win5_2.index t (1 : Fin 2) * 256 + 1 * (j 1).val; omega
  have h1 : ((cfg5.win 1).blk t).view.emb (biasIdxB j) = biasIdx (((cfg5.win 2).blk t).view.emb j) := by
    funext a; apply Fin.ext
    match a with
    | ⟨0, _⟩ => show win5_1.index t (0 : Fin 2) * 1 + 1 * 0 = 0; omega
    | ⟨1, _⟩ => show win5_1.index t (1 : Fin 2) * 256 + 1 * (j 1).val = win5_2.index t (1 : Fin 2) * 256 + 1 * (j 1).val; omega
  have hx : iblk5 V c 0 t j = V c main_v76 (((cfg5.win 2).blk t).view.emb j) := congrArg (V c main_v76) h0
  have hb : iblk5 V c 1 t (biasIdxB j) = V c main_v77 (biasIdx (((cfg5.win 2).blk t).view.emb j)) := congrArg (V c main_v77) h1
  rw [hx, hb]
  rfl

/-- An index of the output array is in point `t`'s block iff each coordinate is in the block's range on its axis. -/
theorem mem_block (t : Fin cfg5.N) (i : S20000x256.Idx) :
    i ∈ ((cfg5.win 2).blk t).view.set ↔ ∀ a : Fin 2, win5_2.index t a * S2000x256.size a ≤ (i a).val ∧ (i a).val < win5_2.index t a * S2000x256.size a + S2000x256.size a := by
  show i ∈ ((View.whole main_v78).slice (win5_2.rect t)).set ↔ _
  rw [View.set_slice_whole, Rect.mem_set_unit]
  exact Iff.rfl

/-- The ten row blocks cover the array: entry (r, j) lies in the block of point r / 2000. -/
theorem blocks_cover (i : S20000x256.Idx) :
    ∃ t : Fin cfg5.N, (cfg5.win 2).flush t = true ∧ i ∈ ((cfg5.win 2).blk t).view.set := by
  have hi0 : (i 0).val < 20000 := (i 0).isLt
  have hi1 : (i 1).val < 256 := (i 1).isLt
  obtain ⟨t, ht⟩ := index_onto ⟨(i 0).val / 2000, by omega⟩
  have q0 : win5_2.index t (0 : Fin 2) = (i 0).val / 2000 := congrFun ht 0
  have q1 : win5_2.index t (1 : Fin 2) = 0 := congrFun ht 1
  refine ⟨t, flush5_2 t, ?_⟩
  rw [mem_block]
  intro a
  match a with
  | ⟨0, _⟩ => show win5_2.index t (0 : Fin 2) * 2000 ≤ (i 0).val ∧ (i 0).val < win5_2.index t (0 : Fin 2) * 2000 + 2000; omega
  | ⟨1, _⟩ => show win5_2.index t (1 : Fin 2) * 256 ≤ (i 1).val ∧ (i 1).val < win5_2.index t (1 : Fin 2) * 256 + 256; omega

/-- THE ARRAY after the region: the entrywise function of the two arrays it was entered with. -/
theorem array_eq (c : Dev nD) :
    (dat5 V c).arrAt 2 cfg5.N = biasTanh (V c main_v76) (V c main_v77) :=
  (dat5 V c).arrAt_eq_of_cover 2 _ (fun t _ => flushed_eq V c t) blocks_cover

end Cert.Gcn.ActivateHidden

end
-- ==== Proof.TransformLatent.lean ====
/-
  The first dense transform: node features (latent) times Wz.

  Region 0 of the launch multiplies the latent node features by a weight matrix, in ten blocks of 2000 rows. At each grid point the
  body loads the point's 2000 rows and the whole weight matrix, casts both to bf16 (on extended reals a change of
  float format is the identity) and stores their product into a zero accumulator. Entry (r, j) of a block is
  therefore the sum over k of (row r of the block, column k) times weight (k, j): it depends on the block's own row
  only, and block t holds rows 2000·t … 2000·t + 1999 of the array. The ten blocks tile the 20000 rows, so after the
  region the output array holds, entry by entry, the sum over k of x (r, k) · w (k, j) of the two arrays the region was
  entered with — the value the host's dot_general of the same two arrays has there.
-/
import proofs.«135464_j16286515987224_1_alg».proof.Proof.Gen.KernelIdeal.Frame
import proofs.«135464_j16286515987224_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.Gcn.TransformLatent

open Idealize.ShloMosaic Idealize.ShloMosaic.TcCoe Idealize.SL.Sem
open Idealize.ShloMosaic.Pipeline (Dat Cfg Window)
open Cert.KernelIdeal Cert.KernelIdeal.Gen

-- the region's entry contents: any assignment of contents to the TensorCore's buffers
variable (V : (c : Dev nD) → (b : Ref sig .tc) → Buf (Elt Ideal) ((c : Thread nD τ).loc b))

theorem zero_offsets : (![0, 0] : Fin 2 → Nat) = fun _ => 0 := funext fun a => by fin_cases a <;> rfl

/-! ## One block: the body's product at an index -/

/-- In a block, the left operand's index for output entry `j` and contracted coordinate `k`: (row of `j`, `k`). -/
abbrev lrow (j : S2000x256.Idx) (k : Fin 256) : S2000x256.Idx := fun a => match a with
  | ⟨0, _⟩ => ⟨(j 0).val, (j 0).isLt⟩
  | ⟨1, _⟩ => ⟨k.val, k.isLt⟩
/-- The weight's index for output entry `j` and contracted coordinate `k`: (`k`, column of `j`). -/
abbrev rcol (j : S2000x256.Idx) (k : Fin 256) : S256x256.Idx := fun a => match a with
  | ⟨0, _⟩ => ⟨k.val, k.isLt⟩
  | ⟨1, _⟩ => ⟨(j 1).val, (j 1).isLt⟩

theorem lhs_0 (i : S2000x256.Idx) (q : dot_S2000x256_S256x256_S2000x256_1_0_0_1_n_n.contr.Idx) : (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_1 (i : S2000x256.Idx) (q : dot_S2000x256_S256x256_S2000x256_1_0_0_1_n_n.contr.Idx) : (dot_S2000x256_S256x256_S2000x256_1_0_0_1_n_n.lhsIdx i q 1).val = (q ⟨0, by decide⟩).val :=
  dot_S2000x256_S256x256_S2000x256_1_0_0_1_n_n.lhsIdx_val_of_single rfl i q
theorem rhs_0 (i : S2000x256.Idx) (q : dot_S2000x256_S256x256_S2000x256_1_0_0_1_n_n.contr.Idx) : (dot_S2000x256_S256x256_S2000x256_1_0_0_1_n_n.rhsIdx i q 0).val = (q ⟨0, by decide⟩).val :=
  dot_S2000x256_S256x256_S2000x256_1_0_0_1_n_n.rhsIdx_val_of_single rfl i q
theorem rhs_1 (i : S2000x256.Idx) (q : dot_S2000x256_S256x256_S2000x256_1_0_0_1_n_n.contr.Idx) : (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The body's stored value at entry `j` of a block: the sum over the contracted coordinate of the loaded rows times
    the loaded weights (the bf16 casts are the identity, the accumulator is zero). -/
theorem product_apply (x0 : Vec Ideal S2000x256 .f32) (x1 : Vec Ideal S256x256 .f32) (j : S2000x256.Idx) :
    k0_pay1 (F := Ideal) x0 x1 j = ∑ k : Fin 256, x0 (lrow j k) * x1 (rcol j k) := by
  unfold k0_pay1
  simp only [matmul]
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx j ((ValueIdx.contrEquiv1 dot_S2000x256_S256x256_S2000x256_1_0_0_1_n_n 256 rfl rfl).symm k) = lrow j k := funext fun a => Fin.ext (by
    match a with
    | ⟨0, _⟩ => exact lhs_0 _ _
    | ⟨1, _⟩ => exact (lhs_1 _ _).trans hk)
  have er : dot_S2000x256_S256x256_S2000x256_1_0_0_1_n_n.rhsIdx j ((ValueIdx.contrEquiv1 dot_S2000x256_S256x256_S2000x256_1_0_0_1_n_n 256 rfl rfl).symm k) = rcol j k := funext fun a => Fin.ext (by
    match a with
    | ⟨0, _⟩ => exact (rhs_0 _ _).trans hk
    | ⟨1, _⟩ => exact rhs_1 _ _)
  rw [el, er]
  rfl

/-! ## The reference's product at an index -/

/-- The host's dot_general of two arrays at entry `i`: the sum over the contracted coordinate `k` of left (row of `i`, `k`)
    times right (`k`, column of `i`). -/
theorem host_product_apply (X : FVec Ideal Cert.ReferenceIdeal.S20000x256 .f32) (Wt : FVec Ideal Cert.ReferenceIdeal.S256x256 .f32) (i : Cert.ReferenceIdeal.S20000x256.Idx) :
    Host.dotGeneral (F := Ideal) (φ₁ := .f32) (φ₂ := .f32) Cert.ReferenceIdeal.dot_S20000x256_S256x256_S20000x256_1_0_0_1_n_n none X Wt i
      = ∑ k : Fin 256, X (Cert.ReferenceIdeal.Read.lidx_main_v7 i k) * Wt (Cert.ReferenceIdeal.Read.ridx_main_v7 i k) := by
  simp only [Host.dotGeneral]
  rw [Ideal.dotGeneral_apply, ← Equiv.sum_comp (ValueIdx.contrEquiv1 Cert.ReferenceIdeal.dot_S20000x256_S256x256_S20000x256_1_0_0_1_n_n 256 rfl rfl).symm]
  refine Finset.sum_congr rfl fun k _ => ?_
  have hk := ValueIdx.contrEquiv1_symm_val Cert.ReferenceIdeal.dot_S20000x256_S256x256_S20000x256_1_0_0_1_n_n 256 rfl rfl k
  have el : Cert.ReferenceIdeal.dot_S20000x256_S256x256_S20000x256_1_0_0_1_n_n.lhsIdx i ((ValueIdx.contrEquiv1 Cert.ReferenceIdeal.dot_S20000x256_S256x256_S20000x256_1_0_0_1_n_n 256 rfl rfl).symm k) = Cert.ReferenceIdeal.Read.lidx_main_v7 i k := funext fun a => Fin.ext (by
    match a with
    | ⟨0, _⟩ => exact Cert.ReferenceIdeal.Read.lhs_main_v7_0 _ _
    | ⟨1, _⟩ => exact (Cert.ReferenceIdeal.Read.lhs_main_v7_1 _ _).trans hk)
  have er : Cert.ReferenceIdeal.dot_S20000x256_S256x256_S20000x256_1_0_0_1_n_n.rhsIdx i ((ValueIdx.contrEquiv1 Cert.ReferenceIdeal.dot_S20000x256_S256x256_S20000x256_1_0_0_1_n_n 256 rfl rfl).symm k) = Cert.ReferenceIdeal.Read.ridx_main_v7 i k := funext fun a => Fin.ext (by
    match a with
    | ⟨0, _⟩ => exact (Cert.ReferenceIdeal.Read.rhs_main_v7_0 _ _).trans hk
    | ⟨1, _⟩ => exact Cert.ReferenceIdeal.Read.rhs_main_v7_1 _ _)
  rw [el, er]

/-! ## From the blocks to the array -/

/-- The printed index maps over the ten grid points: the rows window moves with the output window, its column block
    and both of the weight's block indices are 0, and the output's row block index is below 10. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block is some grid point's. -/
theorem index_onto : ∀ q : Fin 10, ∃ t : Fin cfg0.N, win0_2.index t = ![q.val, 0] :=
  (by decide +kernel : ∀ q : Fin 10, ∃ t : Fin grid0.N, win0_2.index t = ![q.val, 0])

/-- What grid point `t` writes back is block `t` of the product of the two arrays the region was entered with. -/
theorem flushed_eq (c : Dev nD) (t : Fin cfg0.N) :
    (dat0 V c).flushed 2 t = ((cfg0.win 2).blk t).view.read (Elt Ideal)
      (Host.dotGeneral (F := Ideal) (φ₁ := .f32) (φ₂ := .f32) Cert.ReferenceIdeal.dot_S20000x256_S256x256_S20000x256_1_0_0_1_n_n none (V c main_arg0) (V c main_arg3)) := by
  show (cfg0.win 2).cut (grid0.coords t) ((dat0 V c).after 2 t) = _
  rw [after0_2]
  unfold out0_2
  rw [View.canon_unit_zero zero_offsets]
  simp only [View.ld_unit_zero (S := S2000x256) zero_offsets, View.ld_unit_zero (S := S256x256) zero_offsets]
  obtain ⟨e0, e1, e2, e3, e4, e5⟩ := index_facts t
  funext j
  show k0_pay1 (F := Ideal) (iblk0 V c 0 t) (iblk0 V c 1 t) j
    = Host.dotGeneral (F := Ideal) (φ₁ := .f32) (φ₂ := .f32) Cert.ReferenceIdeal.dot_S20000x256_S256x256_S20000x256_1_0_0_1_n_n none (V c main_arg0) (V c main_arg3) (((cfg0.win 2).blk t).view.emb j)
  refine (product_apply (iblk0 V c 0 t) (iblk0 V c 1 t) j).trans ?_
  refine Eq.trans ?_ (host_product_apply (V c main_arg0) (V c main_arg3) (((cfg0.win 2).blk t).view.emb j)).symm
  refine Finset.sum_congr rfl fun k _ => ?_
  have h0 : ((cfg0.win 0).blk t).view.emb (lrow j k) = Cert.ReferenceIdeal.Read.lidx_main_v7 (((cfg0.win 2).blk t).view.emb j) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 256 + 1 * k.val = k.val; omega
  have h1 : ((cfg0.win 1).blk t).view.emb (rcol j k) = Cert.ReferenceIdeal.Read.ridx_main_v7 (((cfg0.win 2).blk t).view.emb j) k := by
    funext a; apply Fin.ext
    match a with
    | ⟨0, _⟩ => show win0_1.index t (0 : Fin 2) * 256 + 1 * k.val = k.val; omega
    | ⟨1, _⟩ => show win0_1.index t (1 : Fin 2) * 256 + 1 * (j 1).val = win0_2.index t (1 : Fin 2) * 256 + 1 * (j 1).val; omega
  have hx : iblk0 V c 0 t (lrow j k) = V c main_arg0 (Cert.ReferenceIdeal.Read.lidx_main_v7 (((cfg0.win 2).blk t).view.emb j) k) := congrArg (V c main_arg0) h0
  have hw : iblk0 V c 1 t (rcol j k) = V c main_arg3 (Cert.ReferenceIdeal.Read.ridx_main_v7 (((cfg0.win 2).blk t).view.emb j) k) := congrArg (V c main_arg3) h1
  rw [hx, hw]

/-- An index of the output array is in point `t`'s block iff each coordinate is in the block's range on its axis. -/
theorem mem_block (t : Fin cfg0.N) (i : S20000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v30).slice (win0_2.rect t)).set ↔ _
  rw [View.set_slice_whole, Rect.mem_set_unit]
  exact Iff.rfl

/-- The ten row blocks cover the array: entry (r, j) lies in the block of point r / 2000. -/
theorem blocks_cover (i : S20000x256.Idx) :
    ∃ t : Fin cfg0.N, (cfg0.win 2).flush t = true ∧ i ∈ ((cfg0.win 2).blk t).view.set := by
  have hi0 : (i 0).val < 20000 := (i 0).isLt
  have hi1 : (i 1).val < 256 := (i 1).isLt
  obtain ⟨t, ht⟩ := index_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- THE ARRAY after the region: the matrix product of the two arrays it was entered with. -/
theorem array_eq (c : Dev nD) :
    (dat0 V c).arrAt 2 cfg0.N = Host.dotGeneral (F := Ideal) (φ₁ := .f32) (φ₂ := .f32) Cert.ReferenceIdeal.dot_S20000x256_S256x256_S20000x256_1_0_0_1_n_n none (V c main_arg0) (V c main_arg3) :=
  (dat0 V c).arrAt_eq_of_cover 2 _ (fun t _ => flushed_eq V c t) blocks_cover

end Cert.Gcn.TransformLatent

end
-- ==== Proof.ActivateLatent.lean ====
/-
  The first layer's epilogue: bias bz and tanh on the aggregated latent transform.

  Region 1 of the launch adds the bias row to the aggregated features and applies tanh, in ten blocks of 2000 rows. At each
  grid point the body loads the point's 2000 rows and the whole 1 × 256 bias row, broadcasts the row down the block,
  adds, applies tanh and stores the block. Entry (r, j) of a block depends on the block's own entry (r, j) and on
  bias entry (0, j) only, and block t holds rows 2000·t … 2000·t + 1999 of the array; the ten blocks tile the 20000
  rows. So after the region the output array holds, entry by entry, tanh (x (r, j) + b₁ (0, j)) of the two arrays the region
  was entered with.
-/
import proofs.«135464_j16286515987224_1_alg».proof.Proof.Gen.KernelIdeal.Frame
import proofs.«135464_j16286515987224_1_alg».proof.Proof.BiasRow
import Idealize.ShloMosaic.Lib.Pipeline.Value
import Idealize.ShloMosaic.Lib.ValueIdx

set_option maxRecDepth 16384

noncomputable section

namespace Cert.Gcn.ActivateLatent

open Idealize.ShloMosaic Idealize.ShloMosaic.TcCoe Idealize.SL.Sem
open Idealize.ShloMosaic.Pipeline (Dat Cfg Window)
open Cert.KernelIdeal Cert.KernelIdeal.Gen

-- the region's entry contents: any assignment of contents to the TensorCore's buffers
variable (V : (c : Dev nD) → (b : Ref sig .tc) → Buf (Elt Ideal) ((c : Thread nD τ).loc b))

theorem zero_offsets : (![0, 0] : Fin 2 → Nat) = fun _ => 0 := funext fun a => by fin_cases a <;> rfl

/-! ## One block: the body's value at an index -/

/-- In a block, the bias row's index under entry `j`: (0, column of `j`). -/
abbrev biasIdxB (j : S2000x256.Idx) : S1x256.Idx := fun a => match a with
  | ⟨0, _⟩ => ⟨0, Nat.one_pos⟩
  | ⟨1, _⟩ => ⟨(j 1).val, (j 1).isLt⟩

/-- The body's stored value at entry `j` of a block (the two shape casts are between equal shapes). -/
theorem body_apply (x0 : Vec Ideal S2000x256 .f32) (x1 : Vec Ideal S1x256 .f32) (j : S2000x256.Idx) :
    k1_pay1 (F := Ideal) x0 x1 j = Ideal.tanh (x0 j + x1 (biasIdxB j)) := by
  unfold k1_pay1
  rw [shapeCast_self, shapeCast_self]
  have hb : broadcastTo S2000x256 x1 broadcasts_S1x256_S2000x256 j = x1 (biasIdxB j) :=
    broadcastTo_apply x1 broadcasts_S1x256_S2000x256 j (biasIdxB j) (fun a => match a with
      | ⟨0, _⟩ => by show 0 = if (1 : Nat) = 1 then 0 else (j 0).val; rw [if_pos rfl]
      | ⟨1, _⟩ => by show (j 1).val = if (256 : Nat) = 1 then 0 else (j 1).val; rw [if_neg (by decide)])
  show Ideal.tanh (x0 j + broadcastTo S2000x256 x1 broadcasts_S1x256_S2000x256 j) = _
  rw [hb]

/-! ## From the blocks to the array -/

/-- The printed index maps over the ten grid points: the rows window moves with the output window, its column block
    and both of the bias row's block indices are 0, and the output's row block index is below 10. -/
theorem index_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every row block is some grid point's. -/
theorem index_onto : ∀ q : Fin 10, ∃ t : Fin cfg1.N, win1_2.index t = ![q.val, 0] :=
  (by decide +kernel : ∀ q : Fin 10, ∃ t : Fin grid1.N, win1_2.index t = ![q.val, 0])

/-- What grid point `t` writes back is block `t` of the entrywise function of the two arrays the region was entered with. -/
theorem flushed_eq (c : Dev nD) (t : Fin cfg1.N) :
    (dat1 V c).flushed 2 t = ((cfg1.win 2).blk t).view.read (Elt Ideal) (biasTanh (V c main_v43) (V c main_v44)) := by
  show (cfg1.win 2).cut (grid1.coords t) ((dat1 V c).after 2 t) = _
  rw [after1_2]
  unfold out1_2
  rw [View.canon_unit_zero zero_offsets]
  simp only [View.ld_unit_zero (S := S2000x256) zero_offsets, View.ld_unit_zero (S := S1x256) zero_offsets]
  obtain ⟨e0, e1, e2, e3, e4, e5⟩ := index_facts t
  funext j
  show k1_pay1 (F := Ideal) (iblk1 V c 0 t) (iblk1 V c 1 t) j
    = biasTanh (V c main_v43) (V c main_v44) (((cfg1.win 2).blk t).view.emb j)
  refine (body_apply (iblk1 V c 0 t) (iblk1 V c 1 t) j).trans ?_
  have h0 : ((cfg1.win 0).blk t).view.emb j = ((cfg1.win 2).blk t).view.emb j := by
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 256 + 1 * (j 1).val = win1_2.index t (1 : Fin 2) * 256 + 1 * (j 1).val; omega
  have h1 : ((cfg1.win 1).blk t).view.emb (biasIdxB j) = biasIdx (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 256 + 1 * (j 1).val = win1_2.index t (1 : Fin 2) * 256 + 1 * (j 1).val; omega
  have hx : iblk1 V c 0 t j = V c main_v43 (((cfg1.win 2).blk t).view.emb j) := congrArg (V c main_v43) h0
  have hb : iblk1 V c 1 t (biasIdxB j) = V c main_v44 (biasIdx (((cfg1.win 2).blk t).view.emb j)) := congrArg (V c main_v44) h1
  rw [hx, hb]
  rfl

/-- An index of the output array is in point `t`'s block iff each coordinate is in the block's range on its axis. -/
theorem mem_block (t : Fin cfg1.N) (i : S20000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v45).slice (win1_2.rect t)).set ↔ _
  rw [View.set_slice_whole, Rect.mem_set_unit]
  exact Iff.rfl

/-- The ten row blocks cover the array: entry (r, j) lies in the block of point r / 2000. -/
theorem blocks_cover (i : S20000x256.Idx) :
    ∃ t : Fin cfg1.N, (cfg1.win 2).flush t = true ∧ i ∈ ((cfg1.win 2).blk t).view.set := by
  have hi0 : (i 0).val < 20000 := (i 0).isLt
  have hi1 : (i 1).val < 256 := (i 1).isLt
  obtain ⟨t, ht⟩ := index_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 256 ≤ (i 1).val ∧ (i 1).val < win1_2.index t (1 : Fin 2) * 256 + 256; omega

/-- THE ARRAY after the region: the entrywise function of the two arrays it was entered with. -/
theorem array_eq (c : Dev nD) :
    (dat1 V c).arrAt 2 cfg1.N = biasTanh (V c main_v43) (V c main_v44) :=
  (dat1 V c).arrAt_eq_of_cover 2 _ (fun t _ => flushed_eq V c t) blocks_cover

end Cert.Gcn.ActivateLatent

end
-- ==== Proof.LayerLatent.lean ====
/-
  The first layer: tanh (aggregate (latent · Wz) + bz).

  Region 0 forms latent · Wz; the host stretch after it gathers each edge's source row, scales it by the edge weight and
  scatter-adds it onto the edge's target row; region 1 adds the bias and applies tanh. Each of the three results is the
  reference's value of the same stage, as a function of the launch's arguments.
-/
import proofs.«135464_j16286515987224_1_alg».proof.Proof.Carry
import proofs.«135464_j16286515987224_1_alg».proof.Proof.Edges
import proofs.«135464_j16286515987224_1_alg».proof.Proof.BiasLink
import proofs.«135464_j16286515987224_1_alg».proof.Proof.TransformLatent
import proofs.«135464_j16286515987224_1_alg».proof.Proof.ActivateLatent

set_option maxRecDepth 16384

noncomputable section

namespace Cert.Gcn.LayerLatent

open Idealize.ShloMosaic Idealize.ShloMosaic.TcCoe Idealize.SL.Sem Idealize.ShloMosaic.StableHlo
open Cert.KernelIdeal Cert.KernelIdeal.Gen Cert.Gcn

variable (m : (ℓ : Loc nD τ sig) → Buf (Elt Ideal) ℓ) (ρ : Dev nD → PrngReg)

/-- After the dense region: the transform's array is the reference's product. -/
theorem transformed (c : Dev nD) :
    W4 m ρ c (Proc.devRef .tc main_v30) = Cert.ReferenceIdeal.Read.val_main_v7 (F := Ideal) (m ((c : Thread nD τ).loc main_arg0)) (m ((c : Thread nD τ).loc main_arg3)) := by
  refine (W4_arr m ρ c 2).trans ?_
  refine (TransformLatent.array_eq (V3 m ρ) c).trans ?_
  show Host.dotGeneral (F := Ideal) Cert.ReferenceIdeal.dot_S20000x256_S256x256_S20000x256_1_0_0_1_n_n none (W3 m ρ c (Proc.devRef .tc main_arg0)) (W3 m ρ c (Proc.devRef .tc main_arg3)) = _
  rw [Carry.keep_arg0_3_0 m ρ c, Carry.keep_arg3_3_0 m ρ c]
  rfl

/-- After the host stretch: the aggregated messages are the reference's. -/
theorem aggregated (c : Dev nD) :
    W5 m ρ c (Proc.devRef .tc main_v43) = Cert.ReferenceIdeal.Read.val_main_v43 (F := Ideal) (m ((c : Thread nD τ).loc main_arg0)) (m ((c : Thread nD τ).loc main_arg2)) (m ((c : Thread nD τ).loc main_arg3)) := by
  show StableHlo.after hostOps1 (W4 m ρ c) (Proc.devRef .tc main_v43) = _
  after_results_simp
  rw [Carry.keep_v3_4_3 m ρ c, Carry.keep_v6_4_3 m ρ c, Carry.keep_v29_4_3 m ρ c, Edges.sources m ρ c, Edges.targets m ρ c, Edges.weights m ρ c, transformed m ρ c]
  rfl

/-- … and the bias row is the bias vector reshaped. -/
theorem bias_row (c : Dev nD) :
    W5 m ρ c (Proc.devRef .tc main_v44) = shapeCast S1x256 (m ((c : Thread nD τ).loc main_arg4)) shapeCasts_S256_S1x256 := by
  show StableHlo.after hostOps1 (W4 m ρ c) (Proc.devRef .tc main_v44) = _
  after_results_simp
  rw [Carry.keep_arg4_4_0 m ρ c]
  rfl

/-- After the epilogue region: the layer's output is the reference's. -/
theorem finished (c : Dev nD) :
    W6 m ρ c (Proc.devRef .tc main_v45) = Cert.ReferenceIdeal.Read.val_main_v47 (F := Ideal) (m ((c : Thread nD τ).loc main_arg0)) (m ((c : Thread nD τ).loc main_arg2)) (m ((c : Thread nD τ).loc main_arg3)) (m ((c : Thread nD τ).loc main_arg4)) := by
  refine (W6_arr m ρ c 2).trans ?_
  refine (ActivateLatent.array_eq (V5 m ρ) c).trans ?_
  show biasTanh (W5 m ρ c (Proc.devRef .tc main_v43)) (W5 m ρ c (Proc.devRef .tc main_v44)) = _
  rw [aggregated m ρ c, bias_row m ρ c, BiasLink.tanh_bias_1]
  rfl

end Cert.Gcn.LayerLatent

end
-- ==== Proof.TransformCondition.lean ====
/-
  The second dense transform: node conditions times Wc.

  Region 2 of the launch multiplies the condition node features by a weight matrix, in ten blocks of 2000 rows. At each grid point the
  body loads the point's 2000 rows and the whole weight matrix, casts both to bf16 (on extended reals a change of
  float format is the identity) and stores their product into a zero accumulator. Entry (r, j) of a block is
  therefore the sum over k of (row r of the block, column k) times weight (k, j): it depends on the block's own row
  only, and block t holds rows 2000·t … 2000·t + 1999 of the array. The ten blocks tile the 20000 rows, so after the
  region the output array holds, entry by entry, the sum over k of x (r, k) · w (k, j) of the two arrays the region was
  entered with — the value the host's dot_general of the same two arrays has there.
-/
import proofs.«135464_j16286515987224_1_alg».proof.Proof.Gen.KernelIdeal.Frame
import proofs.«135464_j16286515987224_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.Gcn.TransformCondition

open Idealize.ShloMosaic Idealize.ShloMosaic.TcCoe Idealize.SL.Sem
open Idealize.ShloMosaic.Pipeline (Dat Cfg Window)
open Cert.KernelIdeal Cert.KernelIdeal.Gen

-- the region's entry contents: any assignment of contents to the TensorCore's buffers
variable (V : (c : Dev nD) → (b : Ref sig .tc) → Buf (Elt Ideal) ((c : Thread nD τ).loc b))

theorem zero_offsets : (![0, 0] : Fin 2 → Nat) = fun _ => 0 := funext fun a => by fin_cases a <;> rfl

/-! ## One block: the body's product at an index -/

/-- In a block, the left operand's index for output entry `j` and contracted coordinate `k`: (row of `j`, `k`). -/
abbrev lrow (j : S2000x256.Idx) (k : Fin 128) : S2000x128.Idx := fun a => match a with
  | ⟨0, _⟩ => ⟨(j 0).val, (j 0).isLt⟩
  | ⟨1, _⟩ => ⟨k.val, k.isLt⟩
/-- The weight's index for output entry `j` and contracted coordinate `k`: (`k`, column of `j`). -/
abbrev rcol (j : S2000x256.Idx) (k : Fin 128) : S128x256.Idx := fun a => match a with
  | ⟨0, _⟩ => ⟨k.val, k.isLt⟩
  | ⟨1, _⟩ => ⟨(j 1).val, (j 1).isLt⟩

theorem lhs_0 (i : S2000x256.Idx) (q : dot_S2000x128_S128x256_S2000x256_1_0_0_1_n_n.contr.Idx) : (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_1 (i : S2000x256.Idx) (q : dot_S2000x128_S128x256_S2000x256_1_0_0_1_n_n.contr.Idx) : (dot_S2000x128_S128x256_S2000x256_1_0_0_1_n_n.lhsIdx i q 1).val = (q ⟨0, by decide⟩).val :=
  dot_S2000x128_S128x256_S2000x256_1_0_0_1_n_n.lhsIdx_val_of_single rfl i q
theorem rhs_0 (i : S2000x256.Idx) (q : dot_S2000x128_S128x256_S2000x256_1_0_0_1_n_n.contr.Idx) : (dot_S2000x128_S128x256_S2000x256_1_0_0_1_n_n.rhsIdx i q 0).val = (q ⟨0, by decide⟩).val :=
  dot_S2000x128_S128x256_S2000x256_1_0_0_1_n_n.rhsIdx_val_of_single rfl i q
theorem rhs_1 (i : S2000x256.Idx) (q : dot_S2000x128_S128x256_S2000x256_1_0_0_1_n_n.contr.Idx) : (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The body's stored value at entry `j` of a block: the sum over the contracted coordinate of the loaded rows times
    the loaded weights (the bf16 casts are the identity, the accumulator is zero). -/
theorem product_apply (x0 : Vec Ideal S2000x128 .f32) (x1 : Vec Ideal S128x256 .f32) (j : S2000x256.Idx) :
    k2_pay1 (F := Ideal) x0 x1 j = ∑ k : Fin 128, x0 (lrow j k) * x1 (rcol j k) := by
  unfold k2_pay1
  simp only [matmul]
  rw [Ideal.matmul_constant_zero_apply, ← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx j ((ValueIdx.contrEquiv1 dot_S2000x128_S128x256_S2000x256_1_0_0_1_n_n 128 rfl rfl).symm k) = lrow j k := funext fun a => Fin.ext (by
    match a with
    | ⟨0, _⟩ => exact lhs_0 _ _
    | ⟨1, _⟩ => exact (lhs_1 _ _).trans hk)
  have er : dot_S2000x128_S128x256_S2000x256_1_0_0_1_n_n.rhsIdx j ((ValueIdx.contrEquiv1 dot_S2000x128_S128x256_S2000x256_1_0_0_1_n_n 128 rfl rfl).symm k) = rcol j k := funext fun a => Fin.ext (by
    match a with
    | ⟨0, _⟩ => exact (rhs_0 _ _).trans hk
    | ⟨1, _⟩ => exact rhs_1 _ _)
  rw [el, er]
  rfl

/-! ## The reference's product at an index -/

/-- The host's dot_general of two arrays at entry `i`: the sum over the contracted coordinate `k` of left (row of `i`, `k`)
    times right (`k`, column of `i`). -/
theorem host_product_apply (X : FVec Ideal Cert.ReferenceIdeal.S20000x128 .f32) (Wt : FVec Ideal Cert.ReferenceIdeal.S128x256 .f32) (i : Cert.ReferenceIdeal.S20000x256.Idx) :
    Host.dotGeneral (F := Ideal) (φ₁ := .f32) (φ₂ := .f32) Cert.ReferenceIdeal.dot_S20000x128_S128x256_S20000x256_1_0_0_1_n_n none X Wt i
      = ∑ k : Fin 128, X (Cert.ReferenceIdeal.Read.lidx_main_v48 i k) * Wt (Cert.ReferenceIdeal.Read.ridx_main_v48 i k) := by
  simp only [Host.dotGeneral]
  rw [Ideal.dotGeneral_apply, ← Equiv.sum_comp (ValueIdx.contrEquiv1 Cert.ReferenceIdeal.dot_S20000x128_S128x256_S20000x256_1_0_0_1_n_n 128 rfl rfl).symm]
  refine Finset.sum_congr rfl fun k _ => ?_
  have hk := ValueIdx.contrEquiv1_symm_val Cert.ReferenceIdeal.dot_S20000x128_S128x256_S20000x256_1_0_0_1_n_n 128 rfl rfl k
  have el : Cert.ReferenceIdeal.dot_S20000x128_S128x256_S20000x256_1_0_0_1_n_n.lhsIdx i ((ValueIdx.contrEquiv1 Cert.ReferenceIdeal.dot_S20000x128_S128x256_S20000x256_1_0_0_1_n_n 128 rfl rfl).symm k) = Cert.ReferenceIdeal.Read.lidx_main_v48 i k := funext fun a => Fin.ext (by
    match a with
    | ⟨0, _⟩ => exact Cert.ReferenceIdeal.Read.lhs_main_v48_0 _ _
    | ⟨1, _⟩ => exact (Cert.ReferenceIdeal.Read.lhs_main_v48_1 _ _).trans hk)
  have er : Cert.ReferenceIdeal.dot_S20000x128_S128x256_S20000x256_1_0_0_1_n_n.rhsIdx i ((ValueIdx.contrEquiv1 Cert.ReferenceIdeal.dot_S20000x128_S128x256_S20000x256_1_0_0_1_n_n 128 rfl rfl).symm k) = Cert.ReferenceIdeal.Read.ridx_main_v48 i k := funext fun a => Fin.ext (by
    match a with
    | ⟨0, _⟩ => exact (Cert.ReferenceIdeal.Read.rhs_main_v48_0 _ _).trans hk
    | ⟨1, _⟩ => exact Cert.ReferenceIdeal.Read.rhs_main_v48_1 _ _)
  rw [el, er]

/-! ## From the blocks to the array -/

/-- The printed index maps over the ten grid points: the rows window moves with the output window, its column block
    and both of the weight's block indices are 0, and the output's row block index is below 10. -/
theorem index_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every row block is some grid point's. -/
theorem index_onto : ∀ q : Fin 10, ∃ t : Fin cfg2.N, win2_2.index t = ![q.val, 0] :=
  (by decide +kernel : ∀ q : Fin 10, ∃ t : Fin grid2.N, win2_2.index t = ![q.val, 0])

/-- What grid point `t` writes back is block `t` of the product of the two arrays the region was entered with. -/
theorem flushed_eq (c : Dev nD) (t : Fin cfg2.N) :
    (dat2 V c).flushed 2 t = ((cfg2.win 2).blk t).view.read (Elt Ideal)
      (Host.dotGeneral (F := Ideal) (φ₁ := .f32) (φ₂ := .f32) Cert.ReferenceIdeal.dot_S20000x128_S128x256_S20000x256_1_0_0_1_n_n none (V c main_arg1) (V c main_arg5)) := by
  show (cfg2.win 2).cut (grid2.coords t) ((dat2 V c).after 2 t) = _
  rw [after2_2]
  unfold out2_2
  rw [View.canon_unit_zero zero_offsets]
  simp only [View.ld_unit_zero (S := S2000x128) zero_offsets, View.ld_unit_zero (S := S128x256) zero_offsets]
  obtain ⟨e0, e1, e2, e3, e4, e5⟩ := index_facts t
  funext j
  show k2_pay1 (F := Ideal) (iblk2 V c 0 t) (iblk2 V c 1 t) j
    = Host.dotGeneral (F := Ideal) (φ₁ := .f32) (φ₂ := .f32) Cert.ReferenceIdeal.dot_S20000x128_S128x256_S20000x256_1_0_0_1_n_n none (V c main_arg1) (V c main_arg5) (((cfg2.win 2).blk t).view.emb j)
  refine (product_apply (iblk2 V c 0 t) (iblk2 V c 1 t) j).trans ?_
  refine Eq.trans ?_ (host_product_apply (V c main_arg1) (V c main_arg5) (((cfg2.win 2).blk t).view.emb j)).symm
  refine Finset.sum_congr rfl fun k _ => ?_
  have h0 : ((cfg2.win 0).blk t).view.emb (lrow j k) = Cert.ReferenceIdeal.Read.lidx_main_v48 (((cfg2.win 2).blk t).view.emb j) k := by
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 128 + 1 * k.val = k.val; omega
  have h1 : ((cfg2.win 1).blk t).view.emb (rcol j k) = Cert.ReferenceIdeal.Read.ridx_main_v48 (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 256 + 1 * (j 1).val = win2_2.index t (1 : Fin 2) * 256 + 1 * (j 1).val; omega
  have hx : iblk2 V c 0 t (lrow j k) = V c main_arg1 (Cert.ReferenceIdeal.Read.lidx_main_v48 (((cfg2.win 2).blk t).view.emb j) k) := congrArg (V c main_arg1) h0
  have hw : iblk2 V c 1 t (rcol j k) = V c main_arg5 (Cert.ReferenceIdeal.Read.ridx_main_v48 (((cfg2.win 2).blk t).view.emb j) k) := congrArg (V c main_arg5) h1
  rw [hx, hw]

/-- An index of the output array is in point `t`'s block iff each coordinate is in the block's range on its axis. -/
theorem mem_block (t : Fin cfg2.N) (i : S20000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v46).slice (win2_2.rect t)).set ↔ _
  rw [View.set_slice_whole, Rect.mem_set_unit]
  exact Iff.rfl

/-- The ten row blocks cover the array: entry (r, j) lies in the block of point r / 2000. -/
theorem blocks_cover (i : S20000x256.Idx) :
    ∃ t : Fin cfg2.N, (cfg2.win 2).flush t = true ∧ i ∈ ((cfg2.win 2).blk t).view.set := by
  have hi0 : (i 0).val < 20000 := (i 0).isLt
  have hi1 : (i 1).val < 256 := (i 1).isLt
  obtain ⟨t, ht⟩ := index_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 256 ≤ (i 1).val ∧ (i 1).val < win2_2.index t (1 : Fin 2) * 256 + 256; omega

/-- THE ARRAY after the region: the matrix product of the two arrays it was entered with. -/
theorem array_eq (c : Dev nD) :
    (dat2 V c).arrAt 2 cfg2.N = Host.dotGeneral (F := Ideal) (φ₁ := .f32) (φ₂ := .f32) Cert.ReferenceIdeal.dot_S20000x128_S128x256_S20000x256_1_0_0_1_n_n none (V c main_arg1) (V c main_arg5) :=
  (dat2 V c).arrAt_eq_of_cover 2 _ (fun t _ => flushed_eq V c t) blocks_cover

end Cert.Gcn.TransformCondition

end
-- ==== Proof.ActivateCondition.lean ====
/-
  The second layer's epilogue: bias bc and tanh on the aggregated condition transform.

  Region 3 of the launch adds the bias row to the aggregated features and applies tanh, in ten blocks of 2000 rows. At each
  grid point the body loads the point's 2000 rows and the whole 1 × 256 bias row, broadcasts the row down the block,
  adds, applies tanh and stores the block. Entry (r, j) of a block depends on the block's own entry (r, j) and on
  bias entry (0, j) only, and block t holds rows 2000·t … 2000·t + 1999 of the array; the ten blocks tile the 20000
  rows. So after the region the output array holds, entry by entry, tanh (x (r, j) + b₁ (0, j)) of the two arrays the region
  was entered with.
-/
import proofs.«135464_j16286515987224_1_alg».proof.Proof.Gen.KernelIdeal.Frame
import proofs.«135464_j16286515987224_1_alg».proof.Proof.BiasRow
import Idealize.ShloMosaic.Lib.Pipeline.Value
import Idealize.ShloMosaic.Lib.ValueIdx

set_option maxRecDepth 16384

noncomputable section

namespace Cert.Gcn.ActivateCondition

open Idealize.ShloMosaic Idealize.ShloMosaic.TcCoe Idealize.SL.Sem
open Idealize.ShloMosaic.Pipeline (Dat Cfg Window)
open Cert.KernelIdeal Cert.KernelIdeal.Gen

-- the region's entry contents: any assignment of contents to the TensorCore's buffers
variable (V : (c : Dev nD) → (b : Ref sig .tc) → Buf (Elt Ideal) ((c : Thread nD τ).loc b))

theorem zero_offsets : (![0, 0] : Fin 2 → Nat) = fun _ => 0 := funext fun a => by fin_cases a <;> rfl

/-! ## One block: the body's value at an index -/

/-- In a block, the bias row's index under entry `j`: (0, column of `j`). -/
abbrev biasIdxB (j : S2000x256.Idx) : S1x256.Idx := fun a => match a with
  | ⟨0, _⟩ => ⟨0, Nat.one_pos⟩
  | ⟨1, _⟩ => ⟨(j 1).val, (j 1).isLt⟩

/-- The body's stored value at entry `j` of a block (the two shape casts are between equal shapes). -/
theorem body_apply (x0 : Vec Ideal S2000x256 .f32) (x1 : Vec Ideal S1x256 .f32) (j : S2000x256.Idx) :
    k3_pay1 (F := Ideal) x0 x1 j = Ideal.tanh (x0 j + x1 (biasIdxB j)) := by
  unfold k3_pay1
  rw [shapeCast_self, shapeCast_self]
  have hb : broadcastTo S2000x256 x1 broadcasts_S1x256_S2000x256 j = x1 (biasIdxB j) :=
    broadcastTo_apply x1 broadcasts_S1x256_S2000x256 j (biasIdxB j) (fun a => match a with
      | ⟨0, _⟩ => by show 0 = if (1 : Nat) = 1 then 0 else (j 0).val; rw [if_pos rfl]
      | ⟨1, _⟩ => by show (j 1).val = if (256 : Nat) = 1 then 0 else (j 1).val; rw [if_neg (by decide)])
  show Ideal.tanh (x0 j + broadcastTo S2000x256 x1 broadcasts_S1x256_S2000x256 j) = _
  rw [hb]

/-! ## From the blocks to the array -/

/-- The printed index maps over the ten grid points: the rows window moves with the output window, its column block
    and both of the bias row's block indices are 0, and the output's row block index is below 10. -/
theorem index_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 9 :=
  (by decide +kernel : ∀ t : Fin grid3.N, _)

/-- Every row block is some grid point's. -/
theorem index_onto : ∀ q : Fin 10, ∃ t : Fin cfg3.N, win3_2.index t = ![q.val, 0] :=
  (by decide +kernel : ∀ q : Fin 10, ∃ t : Fin grid3.N, win3_2.index t = ![q.val, 0])

/-- What grid point `t` writes back is block `t` of the entrywise function of the two arrays the region was entered with. -/
theorem flushed_eq (c : Dev nD) (t : Fin cfg3.N) :
    (dat3 V c).flushed 2 t = ((cfg3.win 2).blk t).view.read (Elt Ideal) (biasTanh (V c main_v59) (V c main_v60)) := by
  show (cfg3.win 2).cut (grid3.coords t) ((dat3 V c).after 2 t) = _
  rw [after3_2]
  unfold out3_2
  rw [View.canon_unit_zero zero_offsets]
  simp only [View.ld_unit_zero (S := S2000x256) zero_offsets, View.ld_unit_zero (S := S1x256) zero_offsets]
  obtain ⟨e0, e1, e2, e3, e4, e5⟩ := index_facts t
  funext j
  show k3_pay1 (F := Ideal) (iblk3 V c 0 t) (iblk3 V c 1 t) j
    = biasTanh (V c main_v59) (V c main_v60) (((cfg3.win 2).blk t).view.emb j)
  refine (body_apply (iblk3 V c 0 t) (iblk3 V c 1 t) j).trans ?_
  have h0 : ((cfg3.win 0).blk t).view.emb j = ((cfg3.win 2).blk t).view.emb j := by
    funext a; apply Fin.ext
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 256 + 1 * (j 1).val = win3_2.index t (1 : Fin 2) * 256 + 1 * (j 1).val; omega
  have h1 : ((cfg3.win 1).blk t).view.emb (biasIdxB j) = biasIdx (((cfg3.win 2).blk t).view.emb j) := by
    funext a; apply Fin.ext
    match a with
    | ⟨0, _⟩ => show win3_1.index t (0 : Fin 2) * 1 + 1 * 0 = 0; omega
    | ⟨1, _⟩ => show win3_1.index t (1 : Fin 2) * 256 + 1 * (j 1).val = win3_2.index t (1 : Fin 2) * 256 + 1 * (j 1).val; omega
  have hx : iblk3 V c 0 t j = V c main_v59 (((cfg3.win 2).blk t).view.emb j) := congrArg (V c main_v59) h0
  have hb : iblk3 V c 1 t (biasIdxB j) = V c main_v60 (biasIdx (((cfg3.win 2).blk t).view.emb j)) := congrArg (V c main_v60) h1
  rw [hx, hb]
  rfl

/-- An index of the output array is in point `t`'s block iff each coordinate is in the block's range on its axis. -/
theorem mem_block (t : Fin cfg3.N) (i : S20000x256.Idx) :
    i ∈ ((cfg3.win 2).blk t).view.set ↔ ∀ a : Fin 2, win3_2.index t a * S2000x256.size a ≤ (i a).val ∧ (i a).val < win3_2.index t a * S2000x256.size a + S2000x256.size a := by
  show i ∈ ((View.whole main_v61).slice (win3_2.rect t)).set ↔ _
  rw [View.set_slice_whole, Rect.mem_set_unit]
  exact Iff.rfl

/-- The ten row blocks cover the array: entry (r, j) lies in the block of point r / 2000. -/
theorem blocks_cover (i : S20000x256.Idx) :
    ∃ t : Fin cfg3.N, (cfg3.win 2).flush t = true ∧ i ∈ ((cfg3.win 2).blk t).view.set := by
  have hi0 : (i 0).val < 20000 := (i 0).isLt
  have hi1 : (i 1).val < 256 := (i 1).isLt
  obtain ⟨t, ht⟩ := index_onto ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 256 ≤ (i 1).val ∧ (i 1).val < win3_2.index t (1 : Fin 2) * 256 + 256; omega

/-- THE ARRAY after the region: the entrywise function of the two arrays it was entered with. -/
theorem array_eq (c : Dev nD) :
    (dat3 V c).arrAt 2 cfg3.N = biasTanh (V c main_v59) (V c main_v60) :=
  (dat3 V c).arrAt_eq_of_cover 2 _ (fun t _ => flushed_eq V c t) blocks_cover

end Cert.Gcn.ActivateCondition

end
-- ==== Proof.LayerCondition.lean ====
/-
  The second layer: tanh (aggregate (condition · Wc) + bc).

  Region 2 forms condition · Wc; the host stretch after it gathers, scales and scatter-adds along the edges; region 3 adds
  the bias and applies tanh. Each result is the reference's value of the same stage (the reference computes the edge
  weights anew here: the same term).
-/
import proofs.«135464_j16286515987224_1_alg».proof.Proof.Carry
import proofs.«135464_j16286515987224_1_alg».proof.Proof.Edges
import proofs.«135464_j16286515987224_1_alg».proof.Proof.BiasLink
import proofs.«135464_j16286515987224_1_alg».proof.Proof.TransformCondition
import proofs.«135464_j16286515987224_1_alg».proof.Proof.ActivateCondition

set_option maxRecDepth 16384

noncomputable section

namespace Cert.Gcn.LayerCondition

open Idealize.ShloMosaic Idealize.ShloMosaic.TcCoe Idealize.SL.Sem Idealize.ShloMosaic.StableHlo
open Cert.KernelIdeal Cert.KernelIdeal.Gen Cert.Gcn

variable (m : (ℓ : Loc nD τ sig) → Buf (Elt Ideal) ℓ) (ρ : Dev nD → PrngReg)

/-- After the dense region: the transform's array is the reference's product. -/
theorem transformed (c : Dev nD) :
    W7 m ρ c (Proc.devRef .tc main_v46) = Cert.ReferenceIdeal.Read.val_main_v48 (F := Ideal) (m ((c : Thread nD τ).loc main_arg1)) (m ((c : Thread nD τ).loc main_arg5)) := by
  refine (W7_arr m ρ c 2).trans ?_
  refine (TransformCondition.array_eq (V6 m ρ) c).trans ?_
  show Host.dotGeneral (F := Ideal) Cert.ReferenceIdeal.dot_S20000x128_S128x256_S20000x256_1_0_0_1_n_n none (W6 m ρ c (Proc.devRef .tc main_arg1)) (W6 m ρ c (Proc.devRef .tc main_arg5)) = _
  rw [Carry.keep_arg1_6_0 m ρ c, Carry.keep_arg5_6_0 m ρ c]
  rfl

/-- After the host stretch: the aggregated messages are the reference's. -/
theorem aggregated (c : Dev nD) :
    W8 m ρ c (Proc.devRef .tc main_v59) = Cert.ReferenceIdeal.Read.val_main_v84 (F := Ideal) (m ((c : Thread nD τ).loc main_arg1)) (m ((c : Thread nD τ).loc main_arg2)) (m ((c : Thread nD τ).loc main_arg5)) := by
  show StableHlo.after hostOps3 (W7 m ρ c) (Proc.devRef .tc main_v59) = _
  after_results_simp
  rw [Carry.keep_v3_7_3 m ρ c, Carry.keep_v6_7_3 m ρ c, Carry.keep_v29_7_3 m ρ c, Edges.sources m ρ c, Edges.targets m ρ c, Edges.weights2 m ρ c, transformed m ρ c]
  rfl

/-- … and the bias row is the bias vector reshaped. -/
theorem bias_row (c : Dev nD) :
    W8 m ρ c (Proc.devRef .tc main_v60) = shapeCast S1x256 (m ((c : Thread nD τ).loc main_arg6)) shapeCasts_S256_S1x256 := by
  show StableHlo.after hostOps3 (W7 m ρ c) (Proc.devRef .tc main_v60) = _
  after_results_simp
  rw [Carry.keep_arg6_7_0 m ρ c]
  rfl

/-- After the epilogue region: the layer's output is the reference's. -/
theorem finished (c : Dev nD) :
    W9 m ρ c (Proc.devRef .tc main_v61) = Cert.ReferenceIdeal.Read.val_main_v88 (F := Ideal) (m ((c : Thread nD τ).loc main_arg1)) (m ((c : Thread nD τ).loc main_arg2)) (m ((c : Thread nD τ).loc main_arg5)) (m ((c : Thread nD τ).loc main_arg6)) := by
  refine (W9_arr m ρ c 2).trans ?_
  refine (ActivateCondition.array_eq (V8 m ρ) c).trans ?_
  show biasTanh (W8 m ρ c (Proc.devRef .tc main_v59)) (W8 m ρ c (Proc.devRef .tc main_v60)) = _
  rw [aggregated m ρ c, bias_row m ρ c, BiasLink.tanh_bias_2]
  rfl

end Cert.Gcn.LayerCondition

end
-- ==== Proof.LayerHidden.lean ====
/-
  The third layer: tanh (aggregate ([z2h | c2h] · Wh) + bh).

  A host concatenation puts the first two layers' outputs side by side (512 columns); region 4 multiplies by Wh; the
  host stretch after it gathers, scales and scatter-adds along the edges; region 5 adds the bias and applies tanh.
-/
import proofs.«135464_j16286515987224_1_alg».proof.Proof.Carry
import proofs.«135464_j16286515987224_1_alg».proof.Proof.Edges
import proofs.«135464_j16286515987224_1_alg».proof.Proof.BiasLink
import proofs.«135464_j16286515987224_1_alg».proof.Proof.TransformHidden
import proofs.«135464_j16286515987224_1_alg».proof.Proof.ActivateHidden
import proofs.«135464_j16286515987224_1_alg».proof.Proof.LayerLatent
import proofs.«135464_j16286515987224_1_alg».proof.Proof.LayerCondition

set_option maxRecDepth 16384

noncomputable section

namespace Cert.Gcn.LayerHidden

open Idealize.ShloMosaic Idealize.ShloMosaic.TcCoe Idealize.SL.Sem Idealize.ShloMosaic.StableHlo
open Cert.KernelIdeal Cert.KernelIdeal.Gen Cert.Gcn

variable (m : (ℓ : Loc nD τ sig) → Buf (Elt Ideal) ℓ) (ρ : Dev nD → PrngReg)

/-- The two activated halves side by side: the reference's concatenation. -/
theorem joined (c : Dev nD) :
    W10 m ρ c (Proc.devRef .tc main_v62) = Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps4 (W9 m ρ c) (Proc.devRef .tc main_v62) = _
  after_results_simp
  rw [Carry.keep_v45_9_6 m ρ c, LayerLatent.finished m ρ c, LayerCondition.finished m ρ c]
  rfl

/-- After the dense region: the transform's array is the reference's product. -/
theorem transformed (c : Dev nD) :
    W11 m ρ c (Proc.devRef .tc main_v63) = Cert.ReferenceIdeal.Read.val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W11_arr m ρ c 2).trans ?_
  refine (TransformHidden.array_eq (V10 m ρ) c).trans ?_
  show Host.dotGeneral (F := Ideal) Cert.ReferenceIdeal.dot_S20000x512_S512x256_S20000x256_1_0_0_1_n_n none (W10 m ρ c (Proc.devRef .tc main_v62)) (W10 m ρ c (Proc.devRef .tc main_arg7)) = _
  rw [joined m ρ c, Carry.keep_arg7_10_0 m ρ c]
  rfl

/-- After the host stretch: the aggregated messages are the reference's. -/
theorem aggregated (c : Dev nD) :
    W12 m ρ c (Proc.devRef .tc main_v76) = Cert.ReferenceIdeal.Read.val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps5 (W11 m ρ c) (Proc.devRef .tc main_v76) = _
  after_results_simp
  rw [Carry.keep_v3_11_3 m ρ c, Carry.keep_v6_11_3 m ρ c, Carry.keep_v29_11_3 m ρ c, Edges.sources m ρ c, Edges.targets m ρ c, Edges.weights3 m ρ c, transformed m ρ c]
  rfl

/-- … and the bias row is the bias vector reshaped. -/
theorem bias_row (c : Dev nD) :
    W12 m ρ c (Proc.devRef .tc main_v77) = shapeCast S1x256 (m ((c : Thread nD τ).loc main_arg8)) shapeCasts_S256_S1x256 := by
  show StableHlo.after hostOps5 (W11 m ρ c) (Proc.devRef .tc main_v77) = _
  after_results_simp
  rw [Carry.keep_arg8_11_0 m ρ c]
  rfl

/-- After the epilogue region: the layer's output is the reference's. -/
theorem finished (c : Dev nD) :
    W13 m ρ c (Proc.devRef .tc main_v78) = Cert.ReferenceIdeal.Read.val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W13_arr m ρ c 2).trans ?_
  refine (ActivateHidden.array_eq (V12 m ρ) c).trans ?_
  show biasTanh (W12 m ρ c (Proc.devRef .tc main_v76)) (W12 m ρ c (Proc.devRef .tc main_v77)) = _
  rw [aggregated m ρ c, bias_row m ρ c, BiasLink.tanh_bias_3]
  rfl

end Cert.Gcn.LayerHidden

end
-- ==== Proof.LayerOut.lean ====
/-
  The last layer: aggregate (h · Wo) + bo.

  Region 6 multiplies the hidden layer's output by Wo; the host stretch after it gathers, scales and scatter-adds along
  the edges; region 7 adds the bias (no activation). Its output is the launch's result, and the reference's.
-/
import proofs.«135464_j16286515987224_1_alg».proof.Proof.Carry
import proofs.«135464_j16286515987224_1_alg».proof.Proof.Edges
import proofs.«135464_j16286515987224_1_alg».proof.Proof.BiasLink
import proofs.«135464_j16286515987224_1_alg».proof.Proof.TransformOut
import proofs.«135464_j16286515987224_1_alg».proof.Proof.BiasOut
import proofs.«135464_j16286515987224_1_alg».proof.Proof.LayerHidden

set_option maxRecDepth 16384

noncomputable section

namespace Cert.Gcn.LayerOut

open Idealize.ShloMosaic Idealize.ShloMosaic.TcCoe Idealize.SL.Sem Idealize.ShloMosaic.StableHlo
open Cert.KernelIdeal Cert.KernelIdeal.Gen Cert.Gcn

variable (m : (ℓ : Loc nD τ sig) → Buf (Elt Ideal) ℓ) (ρ : Dev nD → PrngReg)

/-- After the dense region: the transform's array is the reference's product. -/
theorem transformed (c : Dev nD) :
    W14 m ρ c (Proc.devRef .tc main_v79) = Cert.ReferenceIdeal.Read.val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W14_arr m ρ c 2).trans ?_
  refine (TransformOut.array_eq (V13 m ρ) c).trans ?_
  show Host.dotGeneral (F := Ideal) Cert.ReferenceIdeal.dot_S20000x256_S256x256_S20000x256_1_0_0_1_n_n none (W13 m ρ c (Proc.devRef .tc main_v78)) (W13 m ρ c (Proc.devRef .tc main_arg9)) = _
  rw [LayerHidden.finished m ρ c, Carry.keep_arg9_13_0 m ρ c]
  rfl

/-- After the host stretch: the aggregated messages are the reference's. -/
theorem aggregated (c : Dev nD) :
    W15 m ρ c (Proc.devRef .tc main_v92) = Cert.ReferenceIdeal.Read.val_main_v167 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps7 (W14 m ρ c) (Proc.devRef .tc main_v92) = _
  after_results_simp
  rw [Carry.keep_v3_14_3 m ρ c, Carry.keep_v6_14_3 m ρ c, Carry.keep_v29_14_3 m ρ c, Edges.sources m ρ c, Edges.targets m ρ c, Edges.weights4 m ρ c, transformed m ρ c]
  rfl

/-- … and the bias row is the bias vector reshaped. -/
theorem bias_row (c : Dev nD) :
    W15 m ρ c (Proc.devRef .tc main_v93) = shapeCast S1x256 (m ((c : Thread nD τ).loc main_arg10)) shapeCasts_S256_S1x256 := by
  show StableHlo.after hostOps7 (W14 m ρ c) (Proc.devRef .tc main_v93) = _
  after_results_simp
  rw [Carry.keep_arg10_14_0 m ρ c]
  rfl

/-- After the epilogue region: the layer's output is the reference's. -/
theorem finished (c : Dev nD) :
    W16 m ρ c (Proc.devRef .tc main_v94) = Cert.ReferenceIdeal.Read.val_main_v170 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W16_arr m ρ c 2).trans ?_
  refine (BiasOut.array_eq (V15 m ρ) c).trans ?_
  show biasOnly (W15 m ρ c (Proc.devRef .tc main_v92)) (W15 m ρ c (Proc.devRef .tc main_v93)) = _
  rw [aggregated m ρ c, bias_row m ρ c, BiasLink.bias_4]
  rfl

end Cert.Gcn.LayerOut

end
-- ==== Proof.lean ====
/-
  A four-layer graph convolution, kernel against reference, on extended reals.

  Both programs compute, from node features, an edge list and four weight matrices with biases,
      z2h = tanh (A (latent · Wz) + bz),   c2h = tanh (A (condition · Wc) + bc),
      h   = tanh (A ([z2h | c2h] · Wh) + bh),   out = A (h · Wo) + bo,
  where A gathers each edge's source row, scales it by the edge's weight (the product of the inverse square roots of
  the degrees at its two ends, with self loops added) and scatter-adds it onto the edge's target row. The kernel
  runs the four products and the four bias / tanh steps as eight TensorCore regions of ten 2000-row blocks each, with
  the edge arithmetic on the host between them, and computes the edge weights once; the reference is host operations
  only and computes the edge weights anew in each layer.

  On extended reals the two are one function of the arguments: a change of float format is the identity, so a block's
  bf16 product into a zero accumulator is the plain sum over the contracted coordinate — the host's dot_general at the
  block's rows — and the blocks tile the rows (Transform*); a block's bias step reads its own entry and one bias entry
  (Activate*, BiasOut, BiasLink); every host operation between the regions is the reference's own operation of the same
  operands (Edges, Layer*). No law beyond reading sums and entries at an index is used, so the precondition (finite
  inputs) is never opened. The kernel's idealization rewrote no operation, so `preserves` has nothing to state.
-/
import proofs.«135464_j16286515987224_1_alg».proof.Defs
import proofs.«135464_j16286515987224_1_alg».proof.Proof.Gen.Kernel
import proofs.«135464_j16286515987224_1_alg».proof.Proof.Gen.Kernel.Frame
import proofs.«135464_j16286515987224_1_alg».proof.Proof.Gen.KernelIdeal
import proofs.«135464_j16286515987224_1_alg».proof.Proof.Gen.KernelIdeal.Frame
import proofs.«135464_j16286515987224_1_alg».proof.Proof.Gen.ReferenceIdeal
import proofs.«135464_j16286515987224_1_alg».proof.Proof.Gen.Pre_finite_inputs
import proofs.«135464_j16286515987224_1_alg».proof.Proof.RefRun
import proofs.«135464_j16286515987224_1_alg».proof.Proof.RefRead
import proofs.«135464_j16286515987224_1_alg».proof.Proof.KernelRun
import proofs.«135464_j16286515987224_1_alg».proof.Proof.LayerOut
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- The idealized kernel runs and keeps its arguments: the generated frame. -/
theorem frame_kernel_ideal : Cert.frame_KernelIdeal := fun m ρ _ => Cert.KernelIdeal.Gen.frame m ρ

/-- The idealized reference runs and keeps its arguments: its run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end with the reference's last stage of the launch's arguments as their result: the kernel's by the
    chain of its sixteen segments (LayerOut.finished), the reference's by its run read as stages, from memories that
    agree on the arguments. -/
theorem algebraic : Cert.algebraic_KernelIdeal_ReferenceIdeal := by
  intro m ρ m' ρ' _ hagree
  refine ⟨fun c => Cert.ReferenceIdeal.Read.val_main_v170 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.Gcn.LayerOut.finished m ρ c), (h c).2⟩)
      (Cert.Gcn.KernelRun.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v170_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
